-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2x99998 : Shape := ⟨2, ![2, 99998]⟩
abbrev S50000x256 : Shape := ⟨2, ![50000, 256]⟩
abbrev S256x256 : Shape := ⟨2, ![256, 256]⟩
abbrev S256 : Shape := ⟨1, ![256]⟩
abbrev S512x256 : Shape := ⟨2, ![512, 256]⟩
abbrev S50000 : Shape := ⟨1, ![50000]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg8 : FVec F S256 .f32) (main_arg9 : FVec F S50000 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S50000 .f32 := Host.absf main_arg9
  let main_cst_14 : FVec F S_ .f32 := constant S_ .f32 0x7F800000#32
  let main_v40 : FVec F S50000 .f32 := broadcastInDim S50000 ![] bcast_S_S50000 main_cst_14
  let main_v41 : IVec S50000 1 := cmpf .olt main_v39 main_v40
  let main_c_15 : IVec S_ 1 := constantI S_ 1 1#1
  let main_v42 : IVec S_ 1 := (fun x v => Host.reduce IntOp.andi x v reducesTo_S50000_S_d0 h_S_) main_v41 main_c_15
  let main_v43 : IVec S_ 1 := andi main_v38 main_v42
  main_v43

def fn_part1 {F : FTy → Type} [FloatOps F] (main_arg5 : FVec F S256x256 .f32) (main_arg6 : FVec F S256 .f32) (main_arg7 : FVec F S512x256 .f32) (main_arg8 : FVec F S256 .f32) (main_arg9 : FVec F S50000 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg8 main_arg9 main_v33

def fn {F : FTy → Type} [FloatOps F] (main_arg0 : FVec F S2048x512 .f32) (main_arg1 : IVec S2x99998 32) (main_arg2 : FVec F S50000x256 .f32) (main_arg3 : FVec F S256x256 .f32) (main_arg4 : FVec F S256 .f32) (main_arg5 : FVec F S256x256 .f32) (main_arg6 : FVec F S256 .f32) (main_arg7 : FVec F S512x256 .f32) (main_arg8 : FVec F S256 .f32) (main_arg9 : FVec F S50000 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S50000x256 .f32 := Host.absf main_arg2
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S2048x512 : Shape := ⟨2, ![2048, 512]⟩
abbrev S2x99998 : Shape := ⟨2, ![2, 99998]⟩
abbrev S50000x256 : Shape := ⟨2, ![50000, 256]⟩
abbrev S256x256 : Shape := ⟨2, ![256, 256]⟩
abbrev S256 : Shape := ⟨1, ![256]⟩
abbrev S512x256 : Shape := ⟨2, ![512, 256]⟩
abbrev S50000 : Shape := ⟨1, ![50000]⟩
abbrev S1x99998 : Shape := ⟨2, ![1, 99998]⟩
abbrev S99998 : Shape := ⟨1, ![99998]⟩
abbrev S149998 : Shape := ⟨1, ![149998]⟩
abbrev S_ : Shape := ⟨0, ![]⟩
abbrev S149998x1 : Shape := ⟨2, ![149998, 1]⟩
abbrev S2000x256 : Shape := ⟨2, ![2000, 256]⟩
abbrev S149998x256 : Shape := ⟨2, ![149998, 256]⟩
abbrev S1x256 : Shape := ⟨2, ![1, 256]⟩
abbrev S2048x256 : Shape := ⟨2, ![2048, 256]⟩
abbrev S50176x256 : Shape := ⟨2, ![50176, 256]⟩
abbrev S50176 : Shape := ⟨1, ![50176]⟩
abbrev S1x50176 : Shape := ⟨2, ![1, 50176]⟩
abbrev S2048x50000 : Shape := ⟨2, ![2048, 50000]⟩
abbrev S1024x256 : Shape := ⟨2, ![1024, 256]⟩
abbrev S1x1024 : Shape := ⟨2, ![1, 1024]⟩
abbrev S2048x1024 : Shape := ⟨2, ![2048, 1024]⟩

abbrev nBuf : Space → Nat
  | .hbm => 109
  | .vmem => 17
  | .smem => 0
  | _ => 0

abbrev bufTy : (tb : Table) → Fin (tcTables nBuf tb) → BufTy
  | .hbm, ⟨0, _⟩ => ⟨S2048x512, .f32⟩
  | .hbm, ⟨1, _⟩ => ⟨S2x99998, .i32⟩
  | .hbm, ⟨2, _⟩ => ⟨S50000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S50000, .f32⟩
  | .hbm, ⟨10, _⟩ => ⟨S1x99998, .i32⟩
  | .hbm, ⟨11, _⟩ => ⟨S99998, .i32⟩
  | .hbm, ⟨12, _⟩ => ⟨S1x99998, .i32⟩
  | .hbm, ⟨13, _⟩ => ⟨S99998, .i32⟩
  | .hbm, ⟨14, _⟩ => ⟨S50000, .i32⟩
  | .hbm, ⟨15, _⟩ => ⟨S149998, .i32⟩
  | .hbm, ⟨16, _⟩ => ⟨S149998, .i32⟩
  | .hbm, ⟨17, _⟩ => ⟨S_, .f32⟩
  | .hbm, ⟨18, _⟩ => ⟨S149998, .f32⟩
  | .hbm, ⟨19, _⟩ => ⟨S_, .f32⟩
  | .hbm, ⟨20, _⟩ => ⟨S50000, .f32⟩
  | .hbm, ⟨21, _⟩ => ⟨S149998x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S149998, .i32⟩
  | .hbm, ⟨33, _⟩ => ⟨S149998, .i1⟩
  | .hbm, ⟨34, _⟩ => ⟨S_, .i32⟩
  | .hbm, ⟨35, _⟩ => ⟨S149998, .i32⟩
  | .hbm, ⟨36, _⟩ => ⟨S149998, .i32⟩
  | .hbm, ⟨37, _⟩ => ⟨S149998, .i32⟩
  | .hbm, ⟨38, _⟩ => ⟨S149998x1, .i32⟩
  | .hbm, ⟨39, _⟩ => ⟨S149998, .f32⟩
  | .hbm, ⟨40, _⟩ => ⟨S_, .i32⟩
  | .hbm, ⟨41, _⟩ => ⟨S149998, .i32⟩
  | .hbm, ⟨42, _⟩ => ⟨S149998, .i1⟩
  | .hbm, ⟨43, _⟩ => ⟨S_, .i32⟩
  | .hbm, ⟨44, _⟩ => ⟨S149998, .i32⟩
  | .hbm, ⟨45, _⟩ => ⟨S149998, .i32⟩
  | .hbm, ⟨46, _⟩ => ⟨S149998, .i32⟩
  | .hbm, ⟨47, _⟩ => ⟨S149998x1, .i32⟩
  | .hbm, ⟨48, _⟩ => ⟨S149998, .f32⟩
  | .hbm, ⟨49, _⟩ => ⟨S149998, .f32⟩
  | .hbm, ⟨50, _⟩ => ⟨S256x256, .bf16⟩
  | .hbm, ⟨51, _⟩ => ⟨S256x256, .bf16⟩
  | .hbm, ⟨52, _⟩ => ⟨S50000x256, .f32⟩
  | .hbm, ⟨53, _⟩ => ⟨S_, .i32⟩
  | .hbm, ⟨54, _⟩ => ⟨S149998, .i32⟩
  | .hbm, ⟨55, _⟩ => ⟨S149998, .i1⟩
  | .hbm, ⟨56, _⟩ => ⟨S_, .i32⟩
  | .hbm, ⟨57, _⟩ => ⟨S149998, .i32⟩
  | .hbm, ⟨58, _⟩ => ⟨S149998, .i32⟩
  | .hbm, ⟨59, _⟩ => ⟨S149998, .i32⟩
  | .hbm, ⟨60, _⟩ => ⟨S149998x1, .i32⟩
  | .hbm, ⟨61, _⟩ => ⟨S149998x256, .f32⟩
  | .hbm, ⟨62, _⟩ => ⟨S149998x1, .f32⟩
  | .hbm, ⟨63, _⟩ => ⟨S149998x256, .f32⟩
  | .hbm, ⟨64, _⟩ => ⟨S149998x256, .f32⟩
  | .hbm, ⟨65, _⟩ => ⟨S_, .f32⟩
  | .hbm, ⟨66, _⟩ => ⟨S50000x256, .f32⟩
  | .hbm, ⟨67, _⟩ => ⟨S149998x1, .i32⟩
  | .hbm, ⟨68, _⟩ => ⟨S50000x256, .f32⟩
  | .hbm, ⟨69, _⟩ => ⟨S1x256, .f32⟩
  | .hbm, ⟨70, _⟩ => ⟨S50000x256, .f32⟩
  | .hbm, ⟨71, _⟩ => ⟨S50000x256, .f32⟩
  | .hbm, ⟨72, _⟩ => ⟨S_, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S_, .i32⟩
  | .hbm, ⟨77, _⟩ => ⟨S149998, .i32⟩
  | .hbm, ⟨78, _⟩ => ⟨S149998, .i1⟩
  | .hbm, ⟨79, _⟩ => ⟨S_, .i32⟩
  | .hbm, ⟨80, _⟩ => ⟨S149998, .i32⟩
  | .hbm, ⟨81, _⟩ => ⟨S149998, .i32⟩
  | .hbm, ⟨82, _⟩ => ⟨S149998, .i32⟩
  | .hbm, ⟨83, _⟩ => ⟨S149998x1, .i32⟩
  | .hbm, ⟨84, _⟩ => ⟨S149998x256, .f32⟩
  | .hbm, ⟨85, _⟩ => ⟨S149998x1, .f32⟩
  | .hbm, ⟨86, _⟩ => ⟨S149998x256, .f32⟩
  | .hbm, ⟨87, _⟩ => ⟨S149998x256, .f32⟩
  | .hbm, ⟨88, _⟩ => ⟨S_, .f32⟩
  | .hbm, ⟨89, _⟩ => ⟨S50000x256, .f32⟩
  | .hbm, ⟨90, _⟩ => ⟨S149998x1, .i32⟩
  | .hbm, ⟨91, _⟩ => ⟨S50000x256, .f32⟩
  | .hbm, ⟨92, _⟩ => ⟨S1x256, .f32⟩
  | .hbm, ⟨93, _⟩ => ⟨S50000x256, .f32⟩
  | .hbm, ⟨94, _⟩ => ⟨S50000x256, .f32⟩
  | .hbm, ⟨95, _⟩ => ⟨S2048x256, .f32⟩
  | .hbm, ⟨96, _⟩ => ⟨S1x256, .f32⟩
  | .hbm, ⟨97, _⟩ => ⟨S2048x256, .f32⟩
  | .hbm, ⟨98, _⟩ => ⟨S2048x256, .f32⟩
  | .hbm, ⟨99, _⟩ => ⟨S2048x256, .bf16⟩
  | .hbm, ⟨100, _⟩ => ⟨S50000x256, .bf16⟩
  | .hbm, ⟨101, _⟩ => ⟨S_, .i32⟩
  | .hbm, ⟨102, _⟩ => ⟨S_, .bf16⟩
  | .hbm, ⟨103, _⟩ => ⟨S50176x256, .bf16⟩
  | .hbm, ⟨104, _⟩ => ⟨S_, .i32⟩
  | .hbm, ⟨105, _⟩ => ⟨S_, .f32⟩
  | .hbm, ⟨106, _⟩ => ⟨S50176, .f32⟩
  | .hbm, ⟨107, _⟩ => ⟨S1x50176, .f32⟩
  | .hbm, ⟨108, _⟩ => ⟨S2048x50000, .f32⟩
  | .local _ .vmem, ⟨0, _⟩ => ⟨S2000x256, .f32⟩
  | .local _ .vmem, ⟨1, _⟩ => ⟨S2000x256, .f32⟩
  | .local _ .vmem, ⟨2, _⟩ => ⟨S256x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .bf16⟩
  | .local _ .vmem, ⟨8, _⟩ => ⟨S2000x256, .f32⟩
  | .local _ .vmem, ⟨9, _⟩ => ⟨S2000x256, .f32⟩
  | .local _ .vmem, ⟨10, _⟩ => ⟨S2048x256, .bf16⟩
  | .local _ .vmem, ⟨11, _⟩ => ⟨S1024x256, .bf16⟩
  | .local _ .vmem, ⟨12, _⟩ => ⟨S1024x256, .bf16⟩
  | .local _ .vmem, ⟨13, _⟩ => ⟨S1x1024, .f32⟩
  | .local _ .vmem, ⟨14, _⟩ => ⟨S1x1024, .f32⟩
  | .local _ .vmem, ⟨15, _⟩ => ⟨S2048x1024, .f32⟩
  | .local _ .vmem, ⟨16, _⟩ => ⟨S2048x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_9 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_12 : Ref sig .tc := ⟨.hbm, 101, rfl⟩
abbrev main_call2_v0 : Ref sig .tc := ⟨.hbm, 102, rfl⟩
abbrev main_v73 : Ref sig .tc := ⟨.hbm, 103, rfl⟩
abbrev main_c_13 : Ref sig .tc := ⟨.hbm, 104, rfl⟩
abbrev main_call3_v0 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S2048x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x99998_S1x99998_0_0 : S2x99998.Slices ![0, 0] S1x99998
  shapeCasts_S1x99998_S99998 : S1x99998.ShapeCasts S99998
  slices_S2x99998_S1x99998_1_0 : S2x99998.Slices ![1, 0] S1x99998
  concatenates_S99998_S50000_S149998_d0 : Shape.Concatenates [S99998, S50000] S149998 0
  bcast_S_S149998 : S_.BroadcastsInDim S149998 (![] : Fin 0 → Fin S149998.rank)
  bcast_S_S50000 : S_.BroadcastsInDim S50000 (![] : Fin 0 → Fin S50000.rank)
  bcast_S149998_S149998x1_0 : S149998.BroadcastsInDim S149998x1 (![0] : Fin 1 → Fin S149998x1.rank)
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S149998x1_S149998x256_0_1 : S149998x1.BroadcastsInDim S149998x256 (![0, 1] : Fin 2 → Fin S149998x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  bcast_S1x256_S2048x256_0_1 : S1x256.BroadcastsInDim S2048x256 (![0, 1] : Fin 2 → Fin S2048x256.rank)
  pads_S50000x256_S50176x256_01760_000 : S50000x256.Pads (![0, 0] : Fin 2 → Nat) ![176, 0] ![0, 0] S50176x256
  h_S_ : 0 < S_.numel
  pads_S50000_S50176_01760 : S50000.Pads (![0] : Fin 1 → Nat) ![176] ![0] S50176
  shapeCasts_S50176_S1x50176 : S50176.ShapeCasts S1x50176
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  scatter_S50000_S149998x1_S149998_n_0_0_1_wf : ScatterDims.WF S50000 S149998x1 S149998 [] [0] [0] 1
  gather_S50000_S149998x1_S149998_n_0_n_n_0_1_1_wf : GatherDims.WF S50000 S149998x1 S149998 [] [0] [] [0] [] 1 ![1]
  dot_S2000x256_S256x256_S2000x256_1_0_0_1_n_n_wf : DotDims.WF S2000x256 S256x256 S2000x256 [1] [0] [0] [1] [] []
  gather_S50000x256_S149998x1_S149998x256_1_0_n_n_0_1_1256_wf : GatherDims.WF S50000x256 S149998x1 S149998x256 [1] [0] [] [0] [] 1 ![1, 256]
  scatter_S50000x256_S149998x1_S149998x256_1_0_0_1_wf : ScatterDims.WF S50000x256 S149998x1 S149998x256 [1] [0] [0] 1
  dot_S2048x512_S512x256_S2048x256_1_0_0_1_n_n_wf : DotDims.WF S2048x512 S512x256 S2048x256 [1] [0] [0] [1] [] []
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S2048x256.size a
  hwx2_0 : ∀ i : grid2.Coords, EltTy.bits .bf16 = 32 ∨ (Rect.block (s := S2048x256) S2048x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S50176x256.size a
  hwx2_1 : ∀ i : grid2.Coords, EltTy.bits .bf16 = 32 ∨ (Rect.block (s := S50176x256) S1024x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x50176.size a
  hwx2_2 : ∀ i : grid2.Coords, EltTy.bits .f32 = 32 ∨ (Rect.block (s := S1x50176) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S2048x1024.size a < S2048x50000.size a
  hwx2_3 : ∀ i : grid2.Coords, EltTy.bits .f32 = 32 ∨ (Rect.unit (s := S2048x50000) (fun a => cc2_transform_3 i a * S2048x1024.size a) (fun a => (Pipeline.Clip.of (cc2_transform_3 i a) (S2048x1024.size a) (S2048x50000.size a)).extent (S2048x1024.size a)) fun a => Pipeline.Clip.inb (Pipeline.Clip.ok_of (hstart2_3 i a))).WholeWords (EltTy.packing .f32)
  hwxs2_3 : ∀ i : grid2.Coords, EltTy.bits .f32 = 32 ∨ (Rect.unit (s := S2048x1024) (fun _ => 0) (fun a => (Pipeline.Clip.of (cc2_transform_3 i a) (S2048x1024.size a) (S2048x50000.size a)).extent (S2048x1024.size a)) fun a => (Nat.zero_add _).trans_le (Pipeline.Clip.extent_le (Pipeline.Clip.ok_of (hstart2_3 i a)))).WholeWords (EltTy.packing .f32)

variable [Facts₀]

def scatter_S50000_S149998x1_S149998_n_0_0_1 : ScatterDims S50000 S149998x1 S149998 where
  updateWindowDims := []
  insertedWindowDims := [0]
  scatterDimsToOperandDims := [0]
  indexVectorDim := 1
  wf := scatter_S50000_S149998x1_S149998_n_0_0_1_wf
def gather_S50000_S149998x1_S149998_n_0_n_n_0_1_1 : GatherDims S50000 S149998x1 S149998 where
  offsetDims := []
  collapsedSliceDims := [0]
  operandBatchingDims := []
  startIndicesBatchingDims := []
  startIndexMap := [0]
  indexVectorDim := 1
  sliceSizes := ![1]
  wf := gather_S50000_S149998x1_S149998_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S149998x1_S149998x256_1_0_n_n_0_1_1256 : GatherDims S50000x256 S149998x1 S149998x256 where
  offsetDims := [1]
  collapsedSliceDims := [0]
  operandBatchingDims := []
  startIndicesBatchingDims := []
  startIndexMap := [0]
  indexVectorDim := 1
  sliceSizes := ![1, 256]
  wf := gather_S50000x256_S149998x1_S149998x256_1_0_n_n_0_1_1256_wf
def scatter_S50000x256_S149998x1_S149998x256_1_0_0_1 : ScatterDims S50000x256 S149998x1 S149998x256 where
  updateWindowDims := [1]
  insertedWindowDims := [0]
  scatterDimsToOperandDims := [0]
  indexVectorDim := 1
  wf := scatter_S50000x256_S149998x1_S149998x256_1_0_0_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg2) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v71) S2048x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v73) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v75) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpecClip (Memref.whole main_v76) S2048x1024.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2048x512 : Shape := ⟨2, ![2048, 512]⟩
abbrev S2x99998 : Shape := ⟨2, ![2, 99998]⟩
abbrev S50000x256 : Shape := ⟨2, ![50000, 256]⟩
abbrev S256x256 : Shape := ⟨2, ![256, 256]⟩
abbrev S256 : Shape := ⟨1, ![256]⟩
abbrev S512x256 : Shape := ⟨2, ![512, 256]⟩
abbrev S50000 : Shape := ⟨1, ![50000]⟩
abbrev S1x99998 : Shape := ⟨2, ![1, 99998]⟩
abbrev S99998 : Shape := ⟨1, ![99998]⟩
abbrev S149998 : Shape := ⟨1, ![149998]⟩
abbrev S_ : Shape := ⟨0, ![]⟩
abbrev S149998x1 : Shape := ⟨2, ![149998, 1]⟩
abbrev S149998x256 : Shape := ⟨2, ![149998, 256]⟩
abbrev S1x256 : Shape := ⟨2, ![1, 256]⟩
abbrev S2048x256 : Shape := ⟨2, ![2048, 256]⟩
abbrev S256x50000 : Shape := ⟨2, ![256, 50000]⟩
abbrev S2048x50000 : Shape := ⟨2, ![2048, 50000]⟩
abbrev S1x50000 : Shape := ⟨2, ![1, 50000]⟩

abbrev nBuf : Space → Nat
  | .hbm => 138
  | .vmem => 0
  | .smem => 0
  | _ => 0

abbrev hbmTy0_0 (i : Nat) : BufTy := match i % 128 with
  | 0 => ⟨S2048x512, .f32⟩
  | 1 => ⟨S2x99998, .i32⟩
  | 2 => ⟨S50000x256, .f32⟩
  | 3 => ⟨S256x256, .f32⟩
  | 4 => ⟨S256, .f32⟩
  | 5 => ⟨S256x256, .f32⟩
  | 6 => ⟨S256, .f32⟩
  | 7 => ⟨S512x256, .f32⟩
  | 8 => ⟨S256, .f32⟩
  | 9 => ⟨S50000, .f32⟩
  | 10 => ⟨S1x99998, .i32⟩
  | 11 => ⟨S99998, .i32⟩
  | 12 => ⟨S1x99998, .i32⟩
  | 13 => ⟨S99998, .i32⟩
  | 14 => ⟨S50000x256, .f32⟩
  | 15 => ⟨S50000, .i32⟩
  | 16 => ⟨S149998, .i32⟩
  | 17 => ⟨S149998, .i32⟩
  | 18 => ⟨S_, .f32⟩
  | 19 => ⟨S149998, .f32⟩
  | 20 => ⟨S_, .f32⟩
  | 21 => ⟨S50000, .f32⟩
  | 22 => ⟨S149998x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S149998, .i32⟩
  | 34 => ⟨S149998, .i1⟩
  | 35 => ⟨S_, .i32⟩
  | 36 => ⟨S149998, .i32⟩
  | 37 => ⟨S149998, .i32⟩
  | 38 => ⟨S149998, .i32⟩
  | 39 => ⟨S149998x1, .i32⟩
  | 40 => ⟨S149998, .f32⟩
  | 41 => ⟨S_, .i32⟩
  | 42 => ⟨S149998, .i32⟩
  | 43 => ⟨S149998, .i1⟩
  | 44 => ⟨S_, .i32⟩
  | 45 => ⟨S149998, .i32⟩
  | 46 => ⟨S149998, .i32⟩
  | 47 => ⟨S149998, .i32⟩
  | 48 => ⟨S149998x1, .i32⟩
  | 49 => ⟨S149998, .f32⟩
  | 50 => ⟨S149998, .f32⟩
  | 51 => ⟨S_, .i32⟩
  | 52 => ⟨S149998, .i32⟩
  | 53 => ⟨S149998, .i1⟩
  | 54 => ⟨S_, .i32⟩
  | 55 => ⟨S149998, .i32⟩
  | 56 => ⟨S149998, .i32⟩
  | 57 => ⟨S149998, .i32⟩
  | 58 => ⟨S149998x1, .i32⟩
  | 59 => ⟨S149998x256, .f32⟩
  | 60 => ⟨S149998x1, .f32⟩
  | 61 => ⟨S149998x256, .f32⟩
  | 62 => ⟨S149998x256, .f32⟩
  | 63 => ⟨S_, .f32⟩
  | 64 => ⟨S50000x256, .f32⟩
  | 65 => ⟨S149998x1, .i32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S50000x256, .f32⟩
  | 72 => ⟨S50000x256, .f32⟩
  | 73 => ⟨S50000x256, .f32⟩
  | 74 => ⟨S50000, .i32⟩
  | 75 => ⟨S149998, .i32⟩
  | 76 => ⟨S149998, .i32⟩
  | 77 => ⟨S_, .f32⟩
  | 78 => ⟨S149998, .f32⟩
  | 79 => ⟨S_, .f32⟩
  | 80 => ⟨S50000, .f32⟩
  | 81 => ⟨S149998x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S149998, .i32⟩
  | 93 => ⟨S149998, .i1⟩
  | 94 => ⟨S_, .i32⟩
  | 95 => ⟨S149998, .i32⟩
  | 96 => ⟨S149998, .i32⟩
  | 97 => ⟨S149998, .i32⟩
  | 98 => ⟨S149998x1, .i32⟩
  | 99 => ⟨S149998, .f32⟩
  | 100 => ⟨S_, .i32⟩
  | 101 => ⟨S149998, .i32⟩
  | 102 => ⟨S149998, .i1⟩
  | 103 => ⟨S_, .i32⟩
  | 104 => ⟨S149998, .i32⟩
  | 105 => ⟨S149998, .i32⟩
  | 106 => ⟨S149998, .i32⟩
  | 107 => ⟨S149998x1, .i32⟩
  | 108 => ⟨S149998, .f32⟩
  | 109 => ⟨S149998, .f32⟩
  | 110 => ⟨S_, .i32⟩
  | 111 => ⟨S149998, .i32⟩
  | 112 => ⟨S149998, .i1⟩
  | 113 => ⟨S_, .i32⟩
  | 114 => ⟨S149998, .i32⟩
  | 115 => ⟨S149998, .i32⟩
  | 116 => ⟨S149998, .i32⟩
  | 117 => ⟨S149998x1, .i32⟩
  | 118 => ⟨S149998x256, .f32⟩
  | 119 => ⟨S149998x1, .f32⟩
  | 120 => ⟨S149998x256, .f32⟩
  | 121 => ⟨S149998x256, .f32⟩
  | 122 => ⟨S_, .f32⟩
  | 123 => ⟨S50000x256, .f32⟩
  | 124 => ⟨S149998x1, .i32⟩
  | 125 => ⟨S50000x256, .f32⟩
  | 126 => ⟨S1x256, .f32⟩
  | 127 => ⟨S50000x256, .f32⟩
  | _ => ⟨S2048x512, .f32⟩

abbrev hbmTy0_1 (i : Nat) : BufTy := match i % 128 with
  | 0 => ⟨S50000x256, .f32⟩
  | 1 => ⟨S2048x256, .f32⟩
  | 2 => ⟨S1x256, .f32⟩
  | 3 => ⟨S2048x256, .f32⟩
  | 4 => ⟨S2048x256, .f32⟩
  | 5 => ⟨S256x50000, .f32⟩
  | 6 => ⟨S2048x50000, .f32⟩
  | 7 => ⟨S1x50000, .f32⟩
  | 8 => ⟨S2048x50000, .f32⟩
  | 9 => ⟨S2048x50000, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_c_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_c_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x99998_S1x99998_0_0 : S2x99998.Slices ![0, 0] S1x99998
  shapeCasts_S1x99998_S99998 : S1x99998.ShapeCasts S99998
  slices_S2x99998_S1x99998_1_0 : S2x99998.Slices ![1, 0] S1x99998
  concatenates_S99998_S50000_S149998_d0 : Shape.Concatenates [S99998, S50000] S149998 0
  bcast_S_S149998 : S_.BroadcastsInDim S149998 (![] : Fin 0 → Fin S149998.rank)
  bcast_S_S50000 : S_.BroadcastsInDim S50000 (![] : Fin 0 → Fin S50000.rank)
  bcast_S149998_S149998x1_0 : S149998.BroadcastsInDim S149998x1 (![0] : Fin 1 → Fin S149998x1.rank)
  bcast_S149998x1_S149998x256_0_1 : S149998x1.BroadcastsInDim S149998x256 (![0, 1] : Fin 2 → Fin S149998x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S1x256_S2048x256_0_1 : S1x256.BroadcastsInDim S2048x256 (![0, 1] : Fin 2 → Fin S2048x256.rank)
  transposes_S50000x256_S256x50000_1_0 : S50000x256.Transposes [1, 0] S256x50000
  bcast_S50000_S1x50000_1 : S50000.BroadcastsInDim S1x50000 (![1] : Fin 1 → Fin S1x50000.rank)
  bcast_S1x50000_S2048x50000_0_1 : S1x50000.BroadcastsInDim S2048x50000 (![0, 1] : Fin 2 → Fin S2048x50000.rank)
  dot_S50000x256_S256x256_S50000x256_1_0_0_1_n_n_wf : DotDims.WF S50000x256 S256x256 S50000x256 [1] [0] [0] [1] [] []
  scatter_S50000_S149998x1_S149998_n_0_0_1_wf : ScatterDims.WF S50000 S149998x1 S149998 [] [0] [0] 1
  gather_S50000_S149998x1_S149998_n_0_n_n_0_1_1_wf : GatherDims.WF S50000 S149998x1 S149998 [] [0] [] [0] [] 1 ![1]
  gather_S50000x256_S149998x1_S149998x256_1_0_n_n_0_1_1256_wf : GatherDims.WF S50000x256 S149998x1 S149998x256 [1] [0] [] [0] [] 1 ![1, 256]
  scatter_S50000x256_S149998x1_S149998x256_1_0_0_1_wf : ScatterDims.WF S50000x256 S149998x1 S149998x256 [1] [0] [0] 1
  dot_S2048x512_S512x256_S2048x256_1_0_0_1_n_n_wf : DotDims.WF S2048x512 S512x256 S2048x256 [1] [0] [0] [1] [] []
  dot_S2048x256_S256x50000_S2048x50000_1_0_0_1_n_n_wf : DotDims.WF S2048x256 S256x50000 S2048x50000 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S149998x1_S149998_n_0_0_1 : ScatterDims S50000 S149998x1 S149998 where
  updateWindowDims := []
  insertedWindowDims := [0]
  scatterDimsToOperandDims := [0]
  indexVectorDim := 1
  wf := scatter_S50000_S149998x1_S149998_n_0_0_1_wf
def gather_S50000_S149998x1_S149998_n_0_n_n_0_1_1 : GatherDims S50000 S149998x1 S149998 where
  offsetDims := []
  collapsedSliceDims := [0]
  operandBatchingDims := []
  startIndicesBatchingDims := []
  startIndexMap := [0]
  indexVectorDim := 1
  sliceSizes := ![1]
  wf := gather_S50000_S149998x1_S149998_n_0_n_n_0_1_1_wf
def gather_S50000x256_S149998x1_S149998x256_1_0_n_n_0_1_1256 : GatherDims S50000x256 S149998x1 S149998x256 where
  offsetDims := [1]
  collapsedSliceDims := [0]
  operandBatchingDims := []
  startIndicesBatchingDims := []
  startIndexMap := [0]
  indexVectorDim := 1
  sliceSizes := ![1, 256]
  wf := gather_S50000x256_S149998x1_S149998x256_1_0_n_n_0_1_1256_wf
def scatter_S50000x256_S149998x1_S149998x256_1_0_0_1 : ScatterDims S50000x256 S149998x1 S149998x256 where
  updateWindowDims := [1]
  insertedWindowDims := [0]
  scatterDimsToOperandDims := [0]
  indexVectorDim := 1
  wf := scatter_S50000x256_S149998x1_S149998x256_1_0_0_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x50000_S2048x50000_1_0_0_1_n_n : DotDims S2048x256 S256x50000 S2048x50000 where
  lhsContracting := [1]
  rhsContracting := [0]
  lhsNonContracting := [0]
  rhsNonContracting := [1]
  lhsBatch := []
  rhsBatch := []
  wf := dot_S2048x256_S256x50000_S2048x50000_1_0_0_1_n_n_wf

class Facts : Prop extends Facts₀ where

variable [Facts]
-- ==== Proof.KRun.lean ====
/-
  The idealized kernel's run, with its result named.

  Every weakly fair execution of the program terminates without a fault; in the final state the result array holds
  what the last region's write-backs leave in it (the contents at the last segment boundary, read at the result
  buffer), and the ten argument arrays hold what they held at launch. The run is the library's theorem for a program
  of several regions among stretches of host operations: the memory at each segment boundary is known, and the final
  state is read against the last boundary's contents at the result buffer and at the ten arguments.
-/
import proofs.«148454_j55121610277010_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v76) = W13 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v76 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.RunValue

end
-- ==== Proof.Terms.lean ====
/-
  The host-side arithmetic of the two programs, named once.

  Both programs compute, around their matrix products, the same graph-convolution glue:
  * srcOf e, dstOf e : the source and target node of each of the 149998 edges — the 99998 given edges followed by one
    self-loop per node;
  * normOf s d : the symmetric normalisation of an edge, dinv(src) · dinv(dst), with dinv = deg^(-1/2) where the degree
    (the number of edges into the node) is positive and 0 elsewhere;
  * layer hw s d nrm b : one aggregation — every edge carries row src of hw scaled by the edge's normalisation, the
    rows arriving at a node are added up, and the bias row b is added;
  * relu x : max(x, 0);
  * sample x w b : the sample features x · w + b;
  * nodes … : the node features after the two layers, as the reference computes them (each product a dot_general);
  * refOut … : the reference's logits, sample · nodesᵀ + node bias.
  Negative node indices are read as counted from the end, as the programs do.
-/
import proofs.«148454_j55121610277010_2_alg».proof.ReferenceIdeal

noncomputable section

namespace Cert.GcnTerms

open Cert.ReferenceIdeal Cert.ReferenceIdeal.Facts₀ Cert.ReferenceIdeal.Facts Idealize.ShloMosaic

variable {F : FTy → Type} [FloatOps F] [Cert.ReferenceIdeal.Facts]

/-- The source node of every edge: the given sources, then each node once. -/
def srcOf (a1 : (⟨S2x99998, .i32⟩ : BufTy).Contents (Elt F)) : (⟨S149998, .i32⟩ : BufTy).Contents (Elt F) :=
  concatenate S149998 0 [⟨S99998, (shapeCast _ (extractStridedSlice S1x99998 ![0, 0] a1 slices_S2x99998_S1x99998_0_0) shapeCasts_S1x99998_S99998)⟩, ⟨S50000, (iotaInDim S50000 32 0)⟩] concatenates_S99998_S50000_S149998_d0

/-- The target node of every edge: the given targets, then each node once. -/
def dstOf (a1 : (⟨S2x99998, .i32⟩ : BufTy).Contents (Elt F)) : (⟨S149998, .i32⟩ : BufTy).Contents (Elt F) :=
  concatenate S149998 0 [⟨S99998, (shapeCast _ (extractStridedSlice S1x99998 ![1, 0] a1 slices_S2x99998_S1x99998_1_0) shapeCasts_S1x99998_S99998)⟩, ⟨S50000, (iotaInDim S50000 32 0)⟩] concatenates_S99998_S50000_S149998_d0

/-- The normalisation of every edge: dinv(src) · dinv(dst), dinv the inverse square root of the in-degree where it
    is positive and zero elsewhere. -/
def normOf (s d : (⟨S149998, .i32⟩ : BufTy).Contents (Elt F)) : (⟨S149998, .f32⟩ : BufTy).Contents (Elt F) :=
  mulf (Host.gather gather_S50000_S149998x1_S149998_n_0_n_n_0_1_1 (select (cmpf (F := F) .ogt (Host.scatterAdd scatter_S50000_S149998x1_S149998_n_0_0_1 (broadcastInDim S50000 ![] bcast_S_S50000 (constant S_ .f32 0x00000000#32)) (broadcastInDim S149998x1 ![0] bcast_S149998_S149998x1_0 d) (broadcastInDim S149998 ![] bcast_S_S149998 (constant S_ .f32 0x3F800000#32))) (broadcastInDim S50000 ![] bcast_S_S50000 (constant S_ .f32 0x00000000#32))) (Host.rsqrt (Host.scatterAdd scatter_S50000_S149998x1_S149998_n_0_0_1 (broadcastInDim S50000 ![] bcast_S_S50000 (constant S_ .f32 0x00000000#32)) (broadcastInDim S149998x1 ![0] bcast_S149998_S149998x1_0 d) (broadcastInDim S149998 ![] bcast_S_S149998 (constant S_ .f32 0x3F800000#32)))) (broadcastInDim S50000 ![] bcast_S_S50000 (id (constant S_ .f32 0x00000000#32)))) (broadcastInDim S149998x1 ![0] bcast_S149998_S149998x1_0 (select (cmpi .slt s (broadcastInDim S149998 ![] bcast_S_S149998 (constantI S_ 32 0#32))) (addi s (broadcastInDim S149998 ![] bcast_S_S149998 (constantI S_ 32 50000#32))) s))) (Host.gather gather_S50000_S149998x1_S149998_n_0_n_n_0_1_1 (select (cmpf (F := F) .ogt (Host.scatterAdd scatter_S50000_S149998x1_S149998_n_0_0_1 (broadcastInDim S50000 ![] bcast_S_S50000 (constant S_ .f32 0x00000000#32)) (broadcastInDim S149998x1 ![0] bcast_S149998_S149998x1_0 d) (broadcastInDim S149998 ![] bcast_S_S149998 (constant S_ .f32 0x3F800000#32))) (broadcastInDim S50000 ![] bcast_S_S50000 (constant S_ .f32 0x00000000#32))) (Host.rsqrt (Host.scatterAdd scatter_S50000_S149998x1_S149998_n_0_0_1 (broadcastInDim S50000 ![] bcast_S_S50000 (constant S_ .f32 0x00000000#32)) (broadcastInDim S149998x1 ![0] bcast_S149998_S149998x1_0 d) (broadcastInDim S149998 ![] bcast_S_S149998 (constant S_ .f32 0x3F800000#32)))) (broadcastInDim S50000 ![] bcast_S_S50000 (id (constant S_ .f32 0x00000000#32)))) (broadcastInDim S149998x1 ![0] bcast_S149998_S149998x1_0 (select (cmpi .slt d (broadcastInDim S149998 ![] bcast_S_S149998 (constantI S_ 32 0#32))) (addi d (broadcastInDim S149998 ![] bcast_S_S149998 (constantI S_ 32 50000#32))) d)))

/-- One aggregation: rows of hw gathered at the edges' sources, scaled by the edges' normalisation, added up at the
    edges' targets; then the bias row. -/
def layer (hw : (⟨S50000x256, .f32⟩ : BufTy).Contents (Elt F)) (s d : (⟨S149998, .i32⟩ : BufTy).Contents (Elt F)) (nrm : (⟨S149998, .f32⟩ : BufTy).Contents (Elt F))
    (b : (⟨S256, .f32⟩ : BufTy).Contents (Elt F)) : (⟨S50000x256, .f32⟩ : BufTy).Contents (Elt F) :=
  addf (Host.scatterAdd scatter_S50000x256_S149998x1_S149998x256_1_0_0_1 (broadcastInDim S50000x256 ![] bcast_S_S50000x256 (constant S_ .f32 0x00000000#32)) (broadcastInDim S149998x1 ![0] bcast_S149998_S149998x1_0 d) (mulf (Host.gather gather_S50000x256_S149998x1_S149998x256_1_0_n_n_0_1_1256 hw (broadcastInDim S149998x1 ![0] bcast_S149998_S149998x1_0 (select (cmpi .slt s (broadcastInDim S149998 ![] bcast_S_S149998 (constantI S_ 32 0#32))) (addi s (broadcastInDim S149998 ![] bcast_S_S149998 (constantI S_ 32 50000#32))) s))) (broadcastInDim S149998x256 ![0, 1] bcast_S149998x1_S149998x256_0_1 (broadcastInDim S149998x1 ![0] bcast_S149998_S149998x1_0 nrm)))) (broadcastInDim S50000x256 ![0, 1] bcast_S1x256_S50000x256_0_1 (broadcastInDim S1x256 ![1] bcast_S256_S1x256_1 b))

/-- max(x, 0), entry by entry. -/
def relu (x : (⟨S50000x256, .f32⟩ : BufTy).Contents (Elt F)) : (⟨S50000x256, .f32⟩ : BufTy).Contents (Elt F) :=
  maximumf x (broadcastInDim S50000x256 ![] bcast_S_S50000x256 (constant S_ .f32 0x00000000#32))

/-- The sample features x · w + b. -/
def sample (a0 : (⟨S2048x512, .f32⟩ : BufTy).Contents (Elt F)) (a7 : (⟨S512x256, .f32⟩ : BufTy).Contents (Elt F)) (a8 : (⟨S256, .f32⟩ : BufTy).Contents (Elt F)) : (⟨S2048x256, .f32⟩ : BufTy).Contents (Elt F) :=
  addf (Host.dotGeneral dot_S2048x512_S512x256_S2048x256_1_0_0_1_n_n none a0 a7) (broadcastInDim S2048x256 ![0, 1] bcast_S1x256_S2048x256_0_1 (broadcastInDim S1x256 ![1] bcast_S256_S1x256_1 a8))

/-- The node features after the two layers, each product the host's dot_general. -/
def nodes (a1 : (⟨S2x99998, .i32⟩ : BufTy).Contents (Elt F)) (a2 : (⟨S50000x256, .f32⟩ : BufTy).Contents (Elt F)) (a3 : (⟨S256x256, .f32⟩ : BufTy).Contents (Elt F)) (a4 : (⟨S256, .f32⟩ : BufTy).Contents (Elt F))
    (a5 : (⟨S256x256, .f32⟩ : BufTy).Contents (Elt F)) (a6 : (⟨S256, .f32⟩ : BufTy).Contents (Elt F)) : (⟨S50000x256, .f32⟩ : BufTy).Contents (Elt F) :=
  layer (Host.dotGeneral dot_S50000x256_S256x256_S50000x256_1_0_0_1_n_n none (relu (layer (Host.dotGeneral dot_S50000x256_S256x256_S50000x256_1_0_0_1_n_n none a2 a3) (srcOf a1) (dstOf a1) (normOf (srcOf a1) (dstOf a1)) a4)) a5) (srcOf a1) (dstOf a1) (normOf (srcOf a1) (dstOf a1)) a6

/-- The reference's logits: sample features against the transposed node features, plus the node bias. -/
def refOut (a0 : (⟨S2048x512, .f32⟩ : BufTy).Contents (Elt F)) (a1 : (⟨S2x99998, .i32⟩ : BufTy).Contents (Elt F)) (a2 : (⟨S50000x256, .f32⟩ : BufTy).Contents (Elt F)) (a3 : (⟨S256x256, .f32⟩ : BufTy).Contents (Elt F))
    (a4 : (⟨S256, .f32⟩ : BufTy).Contents (Elt F)) (a5 : (⟨S256x256, .f32⟩ : BufTy).Contents (Elt F)) (a6 : (⟨S256, .f32⟩ : BufTy).Contents (Elt F)) (a7 : (⟨S512x256, .f32⟩ : BufTy).Contents (Elt F))
    (a8 : (⟨S256, .f32⟩ : BufTy).Contents (Elt F)) (a9 : (⟨S50000, .f32⟩ : BufTy).Contents (Elt F)) : (⟨S2048x50000, .f32⟩ : BufTy).Contents (Elt F) :=
  addf (Host.dotGeneral dot_S2048x256_S256x50000_S2048x50000_1_0_0_1_n_n none (sample a0 a7 a8)
    (transpose S256x50000 [1, 0] (nodes a1 a2 a3 a4 a5 a6) transposes_S50000x256_S256x50000_1_0)) (broadcastInDim S2048x50000 ![0, 1] bcast_S1x50000_S2048x50000_0_1 (broadcastInDim S1x50000 ![1] bcast_S50000_S1x50000_1 a9))

end Cert.GcnTerms

end
-- ==== Proof.HostStages.lean ====
/-
  The idealized kernel's host operations between its three regions, read back stretch by stretch.

  Each stretch is a straight line of host operations; run from an arbitrary memory W it leaves each buffer it writes at
  the operations' composed term of what W held, and every other buffer untouched. Read at the buffers the regions and
  the later stretches use:
  * before region 0: the edge sources and targets, the edge normalisation, and the two weights narrowed to bf16;
  * between regions 0 and 1: the first aggregation of region 0's product, passed through max(·, 0);
  * between regions 1 and 2: the sample features narrowed to bf16; the second aggregation of region 1's product,
    narrowed to bf16 and extended by 176 zero rows; the node bias extended by 176 zeros, as a row.
  The terms are the shared definitions of the host-side arithmetic (edge lists, normalisation, aggregation layer).
-/
import proofs.«148454_j55121610277010_2_alg».proof.Proof.Gen.KernelIdeal.Launch
import proofs.«148454_j55121610277010_2_alg».proof.Proof.Gen.ReferenceIdeal
import proofs.«148454_j55121610277010_2_alg».proof.Proof.Terms
import Idealize.ShloMosaic.Lib.StableHlo.Run

set_option maxRecDepth 16384

noncomputable section

namespace Cert.KernelIdeal.HostStages

open Cert.KernelIdeal Cert.KernelIdeal.Facts₀ Cert.KernelIdeal.Facts
open Idealize.ShloMosaic Idealize.ShloMosaic.TcCoe Idealize.SL.Sem Idealize.ShloMosaic.StableHlo
open Cert.GcnTerms (srcOf dstOf normOf layer relu sample)

variable {F : FTy → Type} [FloatOps F]
variable (W : Valuation τ sig (Elt F))

/-! ## Before region 0 -/

/-- The memory after the three stretches before region 0. -/
abbrev afterA : Valuation τ sig (Elt F) := after Gen.hostOps0_2 (after Gen.hostOps0_1 (after Gen.hostOps0 W))

theorem A_src : afterA W (Proc.devRef .tc main_v5) = srcOf (W (Proc.devRef .tc main_arg1)) := by
  after_results_simp <;> rfl
theorem A_dst : afterA W (Proc.devRef .tc main_v6) = dstOf (W (Proc.devRef .tc main_arg1)) := by
  after_results_simp <;> rfl
theorem A_nrm : afterA W (Proc.devRef .tc main_v29) = normOf (srcOf (W (Proc.devRef .tc main_arg1))) (dstOf (W (Proc.devRef .tc main_arg1))) := by
  after_results_simp <;> rfl
theorem A_w1 : afterA W (Proc.devRef .tc main_v30) = truncf .bf16 (W (Proc.devRef .tc main_arg3)) Facts₀.bitsLt_bf16_f32 := by
  after_results_simp <;> rfl
theorem A_w2 : afterA W (Proc.devRef .tc main_v31) = truncf .bf16 (W (Proc.devRef .tc main_arg5)) Facts₀.bitsLt_bf16_f32 := by
  after_results_simp <;> rfl
theorem A_main_arg0 : afterA W (Proc.devRef .tc main_arg0) = W (Proc.devRef .tc main_arg0) := by
  after_results_simp <;> rfl
theorem A_main_arg2 : afterA W (Proc.devRef .tc main_arg2) = W (Proc.devRef .tc main_arg2) := by
  after_results_simp <;> rfl
theorem A_main_arg4 : afterA W (Proc.devRef .tc main_arg4) = W (Proc.devRef .tc main_arg4) := by
  after_results_simp <;> rfl
theorem A_main_arg6 : afterA W (Proc.devRef .tc main_arg6) = W (Proc.devRef .tc main_arg6) := by
  after_results_simp <;> rfl
theorem A_main_arg7 : afterA W (Proc.devRef .tc main_arg7) = W (Proc.devRef .tc main_arg7) := by
  after_results_simp <;> rfl
theorem A_main_arg8 : afterA W (Proc.devRef .tc main_arg8) = W (Proc.devRef .tc main_arg8) := by
  after_results_simp <;> rfl
theorem A_main_arg9 : afterA W (Proc.devRef .tc main_arg9) = W (Proc.devRef .tc main_arg9) := by
  after_results_simp <;> rfl

/-! ## Between regions 0 and 1 -/

/-- The memory after the two stretches between regions 0 and 1. -/
abbrev afterB : Valuation τ sig (Elt F) := after Gen.hostOps1_1 (after Gen.hostOps1 W)

theorem B_out : afterB W (Proc.devRef .tc main_v49) = relu (layer (W (Proc.devRef .tc main_v32)) (W (Proc.devRef .tc main_v5)) (W (Proc.devRef .tc main_v6)) (W (Proc.devRef .tc main_v29)) (W (Proc.devRef .tc main_arg4))) := by
  after_results_simp <;> rfl
theorem B_main_v5 : afterB W (Proc.devRef .tc main_v5) = W (Proc.devRef .tc main_v5) := by
  after_results_simp <;> rfl
theorem B_main_v6 : afterB W (Proc.devRef .tc main_v6) = W (Proc.devRef .tc main_v6) := by
  after_results_simp <;> rfl
theorem B_main_v29 : afterB W (Proc.devRef .tc main_v29) = W (Proc.devRef .tc main_v29) := by
  after_results_simp <;> rfl
theorem B_main_v31 : afterB W (Proc.devRef .tc main_v31) = W (Proc.devRef .tc main_v31) := by
  after_results_simp <;> rfl
theorem B_main_arg0 : afterB W (Proc.devRef .tc main_arg0) = W (Proc.devRef .tc main_arg0) := by
  after_results_simp <;> rfl
theorem B_main_arg6 : afterB W (Proc.devRef .tc main_arg6) = W (Proc.devRef .tc main_arg6) := by
  after_results_simp <;> rfl
theorem B_main_arg7 : afterB W (Proc.devRef .tc main_arg7) = W (Proc.devRef .tc main_arg7) := by
  after_results_simp <;> rfl
theorem B_main_arg8 : afterB W (Proc.devRef .tc main_arg8) = W (Proc.devRef .tc main_arg8) := by
  after_results_simp <;> rfl
theorem B_main_arg9 : afterB W (Proc.devRef .tc main_arg9) = W (Proc.devRef .tc main_arg9) := by
  after_results_simp <;> rfl

/-! ## Between regions 1 and 2 -/

/-- The memory after the five stretches between regions 1 and 2. -/
abbrev afterC : Valuation τ sig (Elt F) :=
  after Gen.hostOps2_4 (after Gen.hostOps2_3 (after Gen.hostOps2_2 (after Gen.hostOps2_1 (after Gen.hostOps2 W))))

theorem C_sample : afterC W (Proc.devRef .tc main_v71) = truncf .bf16 (sample (W (Proc.devRef .tc main_arg0)) (W (Proc.devRef .tc main_arg7)) (W (Proc.devRef .tc main_arg8))) Facts₀.bitsLt_bf16_f32 := by
  after_results_simp <;> rfl
theorem C_nodes : afterC W (Proc.devRef .tc main_v73) = pad S50176x256 ![0, 0] ![176, 0] ![0, 0]
        (truncf .bf16 (layer (W (Proc.devRef .tc main_v50)) (W (Proc.devRef .tc main_v5)) (W (Proc.devRef .tc main_v6)) (W (Proc.devRef .tc main_v29)) (W (Proc.devRef .tc main_arg6))) Facts₀.bitsLt_bf16_f32)
        (sitofp .bf16 (constantI S_ 32 0#32)) Facts₀.pads_S50000x256_S50176x256_01760_000 Facts₀.h_S_ := by
  after_results_simp <;> rfl
theorem C_bias : afterC W (Proc.devRef .tc main_v75) = shapeCast S1x50176 (pad S50176 ![0] ![176] ![0] (W (Proc.devRef .tc main_arg9)) (sitofp .f32 (constantI S_ 32 0#32))
        Facts₀.pads_S50000_S50176_01760 Facts₀.h_S_) Facts₀.shapeCasts_S50176_S1x50176 := by
  after_results_simp <;> rfl

end Cert.KernelIdeal.HostStages

end
-- ==== Proof.Spec.lean ====
/-
  The two whole-array functions the kernel's three regions compute, over the extended reals.

  * rowsTimes x w : an [50000, 256] array of node rows times a [256, 256] weight,
      (x · w)(n, c) = ∑ k, x(n, k) · w(k, c).
  * logits s f b : sample features [2048, 256] against node features f, stored with 176 extra rows
      ([50176, 256]), plus a bias row b stored with 176 extra entries ([1, 50176]):
      out(r, n) = ∑ k, s(r, k) · f(n, k) + b(0, n)   for the 50000 real nodes n.
    The extra rows and entries are never read: node n < 50000 sits at row n of f and entry n of b.
-/
import Idealize.ShloMosaic.PureOps.Ideal
import Idealize.ShloMosaic.Lib.ValueIdx

noncomputable section

open scoped BigOperators

namespace Cert.GcnSpec

open Idealize.ShloMosaic Idealize.ShloMosaic.ValueIdx

/-- A node index among the 50000 real nodes, as a row of the array stored with 176 extra rows. -/
abbrev padNode (n : Fin 50000) : Fin 50176 := ⟨n.val, by have := n.isLt; omega⟩

/-- Node rows times a weight matrix: (x · w)(n, c) = ∑ k, x(n, k) · w(k, c). -/
def rowsTimes (x : (⟨2, ![50000, 256]⟩ : Shape).Idx → EReal) (w : (⟨2, ![256, 256]⟩ : Shape).Idx → EReal) :
    (⟨2, ![50000, 256]⟩ : Shape).Idx → EReal :=
  fun i => ∑ k : Fin 256, x (ix2 (i 0) k) * w (ix2 k (i 1))

/-- Sample features against the stored node features, plus the stored bias row, at the real nodes:
    out(r, n) = ∑ k, s(r, k) · f(n, k) + b(0, n). -/
def logits (s : (⟨2, ![2048, 256]⟩ : Shape).Idx → EReal) (f : (⟨2, ![50176, 256]⟩ : Shape).Idx → EReal)
    (b : (⟨2, ![1, 50176]⟩ : Shape).Idx → EReal) : (⟨2, ![2048, 50000]⟩ : Shape).Idx → EReal :=
  fun i => (∑ k : Fin 256, s (ix2 (i 0) k) * f (ix2 (padNode (i 1)) k)) + b (ix2 (0 : Fin 1) (padNode (i 1)))

end Cert.GcnSpec

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LinearRegions.lean ====
/-
  The two row-tiled linear layers, read as whole arrays.

  Each of the two regions multiplies an array of 50000 node rows, 256 features wide, by a 256 x 256 weight.
  The rows are processed in 25 blocks of 2000 consecutive rows; at every block the whole weight is used.
  What one block computes, at row p of the block and column q, is the sum over k of
  x(p, k) * w(k, q): rounding the factors to a shorter float format is the identity on the extended reals,
  and a product accumulated into zero is the plain sum. Row p of block t is row 2000 * t + p of the array,
  the 25 blocks are disjoint and fill the 50000 rows, so the array each region leaves is
  (x * w)(n, c) = sum over k of x(n, k) * w(k, c) at every index.
-/
import proofs.«148454_j55121610277010_2_alg».proof.Proof.Gen.KernelIdeal.Frame
import proofs.«148454_j55121610277010_2_alg».proof.Proof.Spec
import proofs.«148454_j55121610277010_2_alg».proof.Proof.LibContract
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.LinearRegions

open Cert.KernelIdeal Cert.KernelIdeal.Gen Idealize.ShloMosaic Idealize.ShloMosaic.ValueIdx
open Idealize.ShloMosaic.TcCoe Idealize.ShloMosaic.Pipeline

/-! ## One block: rows times the weight -/

/-- The contraction of the block product, at a result index, is the sum over the shared coordinate. -/
theorem contr_sum (l : S2000x256.Idx → EReal) (r : S256x256.Idx → EReal) (j : S2000x256.Idx) :
    ∑ q : dot_S2000x256_S256x256_S2000x256_1_0_0_1_n_n.contr.Idx,
        l (dot_S2000x256_S256x256_S2000x256_1_0_0_1_n_n.lhsIdx j q) * r (dot_S2000x256_S256x256_S2000x256_1_0_0_1_n_n.rhsIdx j q)
      = ∑ k : Fin 256, l (ix2 (j 0) k) * r (ix2 k (j 1)) :=
  Contract2.sum_contr_eq_sum_fin (n0 := 2000) (n1 := 256) (K := 256) dot_S2000x256_S256x256_S2000x256_1_0_0_1_n_n rfl rfl rfl rfl
    (fun j q => by
      unfold DotDims.lhsIdx
      rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
      rfl)
    (fun j q => by
      unfold DotDims.rhsIdx
      rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
      rfl)
    l r j

/-- The first layer's block, at row p and column q, is the sum over k of x(p, k) * w(k, q). -/
theorem pay0_apply (x0 : Vec Ideal S2000x256 .f32) (x1 : Vec Ideal S256x256 .bf16) (p : Fin 2000) (q : Fin 256) :
    k0_pay1 x0 x1 (ix2 p q) = ∑ k : Fin 256, x0 (ix2 p k) * x1 (ix2 k q) := by
  unfold k0_pay1
  rw [shapeCast_self]
  refine (Ideal.matmul_constant_zero_apply (φ₁ := .bf16) (φ₂ := .bf16) dot_S2000x256_S256x256_S2000x256_1_0_0_1_n_n none _ _ (ix2 p q)).trans ?_
  exact contr_sum (fun i => x0 i) (fun i => x1 i) (ix2 p q)

/-- The second layer's block, at row p and column q, is the sum over k of x(p, k) * w(k, q). -/
theorem pay1_apply (x0 : Vec Ideal S2000x256 .f32) (x1 : Vec Ideal S256x256 .bf16) (p : Fin 2000) (q : Fin 256) :
    k1_pay1 x0 x1 (ix2 p q) = ∑ k : Fin 256, x0 (ix2 p k) * x1 (ix2 k q) := by
  unfold k1_pay1
  rw [shapeCast_self, shapeCast_self]
  refine (Ideal.matmul_constant_zero_apply (φ₁ := .bf16) (φ₂ := .bf16) dot_S2000x256_S256x256_S2000x256_1_0_0_1_n_n none _ _ (ix2 p q)).trans ?_
  exact contr_sum (fun i => x0 i) (fun i => x1 i) (ix2 p q)

/-! ## From blocks to the array -/

/-- The zero offsets of a whole-buffer access, as a constant function. -/
theorem zeroOffsets : (![0, 0] : Fin 2 → Nat) = fun _ => 0 := funext fun a => by fin_cases a <;> rfl

/-! ## Region 0: the first layer as a whole array -/

/-- Where the blocks sit: the row-block number of the input and of the output is the grid point itself, every
    column-block number is 0, and the weight's only block is the whole weight. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the rows by the weight, both as the region finds them:
    row p of the block is row 2000 * t + p of the array, and the weight is read whole. -/
theorem flushed0 (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (Cert.GcnSpec.rowsTimes (V c main_arg2) (V c main_v30)) := by
  show (cfg0.win 2).cut (grid0.coords t) ((dat0 (F := Ideal) V c).after 2 t) = _
  rw [after0_2]
  unfold out0_2
  rw [View.canon_unit_zero zeroOffsets]
  simp only [View.ld_unit_zero (S := S2000x256) zeroOffsets, View.ld_unit_zero (S := S256x256) zeroOffsets]
  obtain ⟨e00, e01, e10, e11, e20, e21⟩ := blockIndex0 t
  funext j
  have hp : (j 0).val < 2000 := (j 0).isLt
  have hq : (j 1).val < 256 := (j 1).isLt
  have ej : (cfg0.win 2).xinj (grid0.coords t) j = ix2 (⟨(j 0).val, hp⟩ : Fin 2000) (⟨(j 1).val, hq⟩ : Fin 256) :=
    funext fun a => Fin.ext (by
      match a with
      | ⟨0, _⟩ => rfl
      | ⟨1, _⟩ => rfl)
  show k0_pay1 (iblk0 V c 0 t) (iblk0 V c 1 t) ((cfg0.win 2).xinj (grid0.coords t) j)
      = Cert.GcnSpec.rowsTimes (V c main_arg2) (V c main_v30) (((cfg0.win 2).blk t).view.emb j)
  rw [ej]
  refine (pay0_apply (iblk0 V c 0 t) (iblk0 V c 1 t) ⟨(j 0).val, hp⟩ ⟨(j 1).val, hq⟩).trans ?_
  unfold Cert.GcnSpec.rowsTimes
  refine Finset.sum_congr rfl fun k _ => ?_
  have hk : k.val < 256 := k.isLt
  have hx : iblk0 V c 0 t (ix2 (⟨(j 0).val, hp⟩ : Fin 2000) k)
      = V c main_arg2 (ix2 ((((cfg0.win 2).blk t).view.emb j) 0) k) := by
    show V c main_arg2 (((cfg0.win 0).blk t).view.emb (ix2 (⟨(j 0).val, hp⟩ : Fin 2000) k))
        = V c main_arg2 (ix2 ((((cfg0.win 2).blk t).view.emb j) 0) k)
    refine congrArg (V c main_arg2) (funext fun a => Fin.ext ?_)
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 256 + 1 * k.val = k.val
      omega
  have hw : iblk0 V c 1 t (ix2 k (⟨(j 1).val, hq⟩ : Fin 256))
      = V c main_v30 (ix2 k ((((cfg0.win 2).blk t).view.emb j) 1)) := by
    show V c main_v30 (((cfg0.win 1).blk t).view.emb (ix2 k (⟨(j 1).val, hq⟩ : Fin 256)))
        = V c main_v30 (ix2 k ((((cfg0.win 2).blk t).view.emb j) 1))
    refine congrArg (V c main_v30) (funext fun a => Fin.ext ?_)
    match a with
    | ⟨0, _⟩ =>
      show win0_1.index t (0 : Fin 2) * 256 + 1 * k.val = k.val
      omega
    | ⟨1, _⟩ =>
      show win0_1.index t (1 : Fin 2) * 256 + 1 * (j 1).val = win0_2.index t (1 : Fin 2) * 256 + 1 * (j 1).val
      omega
  rw [hx, hw]

/-- An index of the array is in point t's output block iff each coordinate is in the block's range on its axis. -/
theorem mem_block0 (t : Fin cfg0.N) (i : S50000x256.Idx) :
    i ∈ ((cfg0.win 2).blk t).view.set
      ↔ ∀ a : Fin 2, win0_2.index t a * S2000x256.size a ≤ (i a).val
          ∧ (i a).val < win0_2.index t a * S2000x256.size a + S2000x256.size a := by
  show i ∈ ((View.whole main_v32).slice (win0_2.rect t)).set ↔ _
  rw [View.set_slice_whole, Rect.mem_set_unit]
  exact Iff.rfl

/-- Every index of the array is in a block that is written back: row r is in block r / 2000. -/
theorem covered0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : (i 0).val / 2000 < cfg0.N := by
    show (i 0).val / 2000 < grid0.N
    rw [N_0]; omega
  obtain ⟨-, -, -, -, e20, e21⟩ := blockIndex0 ⟨(i 0).val / 2000, hN⟩
  have e20' : win0_2.index ⟨(i 0).val / 2000, hN⟩ (0 : Fin 2) = (i 0).val / 2000 := e20
  refine ⟨⟨(i 0).val / 2000, hN⟩, flush0_2 _, ?_⟩
  rw [mem_block0]
  intro a
  match a with
  | ⟨0, _⟩ =>
    show win0_2.index ⟨(i 0).val / 2000, hN⟩ (0 : Fin 2) * 2000 ≤ (i 0).val
      ∧ (i 0).val < win0_2.index ⟨(i 0).val / 2000, hN⟩ (0 : Fin 2) * 2000 + 2000
    omega
  | ⟨1, _⟩ =>
    show win0_2.index ⟨(i 0).val / 2000, hN⟩ (1 : Fin 2) * 256 ≤ (i 1).val
      ∧ (i 1).val < win0_2.index ⟨(i 0).val / 2000, hN⟩ (1 : Fin 2) * 256 + 256
    omega

/-- The array the first layer leaves: the rows times the weight, at every index. -/
theorem arr0 (V : (c : Dev nD) → (b : Ref sig .tc) → Buf (Elt Ideal) ((c : Thread nD τ).loc b)) (c : Dev nD) :
    (dat0 (F := Ideal) V c).arrAt 2 cfg0.N = Cert.GcnSpec.rowsTimes (V c main_arg2) (V c main_v30) :=
  (dat0 (F := Ideal) V c).arrAt_eq_of_cover 2 (Cert.GcnSpec.rowsTimes (V c main_arg2) (V c main_v30))
    (fun t _ => flushed0 V c t) covered0

/-! ## Region 1: the second layer as a whole array -/

/-- Where the blocks sit: the row-block number of the input and of the output is the grid point itself, every
    column-block number is 0, and the weight's only block is the whole weight. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the rows by the weight, both as the region finds them:
    row p of the block is row 2000 * t + p of the array, and the weight is read whole. -/
theorem flushed1 (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal) (Cert.GcnSpec.rowsTimes (V c main_v49) (V c main_v31)) := by
  show (cfg1.win 2).cut (grid1.coords t) ((dat1 (F := Ideal) V c).after 2 t) = _
  rw [after1_2]
  unfold out1_2
  rw [View.canon_unit_zero zeroOffsets]
  simp only [View.ld_unit_zero (S := S2000x256) zeroOffsets, View.ld_unit_zero (S := S256x256) zeroOffsets]
  obtain ⟨e00, e01, e10, e11, e20, e21⟩ := blockIndex1 t
  funext j
  have hp : (j 0).val < 2000 := (j 0).isLt
  have hq : (j 1).val < 256 := (j 1).isLt
  have ej : (cfg1.win 2).xinj (grid1.coords t) j = ix2 (⟨(j 0).val, hp⟩ : Fin 2000) (⟨(j 1).val, hq⟩ : Fin 256) :=
    funext fun a => Fin.ext (by
      match a with
      | ⟨0, _⟩ => rfl
      | ⟨1, _⟩ => rfl)
  show k1_pay1 (iblk1 V c 0 t) (iblk1 V c 1 t) ((cfg1.win 2).xinj (grid1.coords t) j)
      = Cert.GcnSpec.rowsTimes (V c main_v49) (V c main_v31) (((cfg1.win 2).blk t).view.emb j)
  rw [ej]
  refine (pay1_apply (iblk1 V c 0 t) (iblk1 V c 1 t) ⟨(j 0).val, hp⟩ ⟨(j 1).val, hq⟩).trans ?_
  unfold Cert.GcnSpec.rowsTimes
  refine Finset.sum_congr rfl fun k _ => ?_
  have hk : k.val < 256 := k.isLt
  have hx : iblk1 V c 0 t (ix2 (⟨(j 0).val, hp⟩ : Fin 2000) k)
      = V c main_v49 (ix2 ((((cfg1.win 2).blk t).view.emb j) 0) k) := by
    show V c main_v49 (((cfg1.win 0).blk t).view.emb (ix2 (⟨(j 0).val, hp⟩ : Fin 2000) k))
        = V c main_v49 (ix2 ((((cfg1.win 2).blk t).view.emb j) 0) k)
    refine congrArg (V c main_v49) (funext fun a => Fin.ext ?_)
    match a with
    | ⟨0, _⟩ =>
      show win1_0.index t (0 : Fin 2) * 2000 + 1 * (j 0).val = win1_2.index t (0 : Fin 2) * 2000 + 1 * (j 0).val
      omega
    | ⟨1, _⟩ =>
      show win1_0.index t (1 : Fin 2) * 256 + 1 * k.val = k.val
      omega
  have hw : iblk1 V c 1 t (ix2 k (⟨(j 1).val, hq⟩ : Fin 256))
      = V c main_v31 (ix2 k ((((cfg1.win 2).blk t).view.emb j) 1)) := by
    show V c main_v31 (((cfg1.win 1).blk t).view.emb (ix2 k (⟨(j 1).val, hq⟩ : Fin 256)))
        = V c main_v31 (ix2 k ((((cfg1.win 2).blk t).view.emb j) 1))
    refine congrArg (V c main_v31) (funext fun a => Fin.ext ?_)
    match a with
    | ⟨0, _⟩ =>
      show win1_1.index t (0 : Fin 2) * 256 + 1 * k.val = k.val
      omega
    | ⟨1, _⟩ =>
      show win1_1.index t (1 : Fin 2) * 256 + 1 * (j 1).val = win1_2.index t (1 : Fin 2) * 256 + 1 * (j 1).val
      omega
  rw [hx, hw]

/-- An index of the array is in point t's output block iff each coordinate is in the block's range on its axis. -/
theorem mem_block1 (t : Fin cfg1.N) (i : S50000x256.Idx) :
    i ∈ ((cfg1.win 2).blk t).view.set
      ↔ ∀ a : Fin 2, win1_2.index t a * S2000x256.size a ≤ (i a).val
          ∧ (i a).val < win1_2.index t a * S2000x256.size a + S2000x256.size a := by
  show i ∈ ((View.whole main_v50).slice (win1_2.rect t)).set ↔ _
  rw [View.set_slice_whole, Rect.mem_set_unit]
  exact Iff.rfl

/-- Every index of the array is in a block that is written back: row r is in block r / 2000. -/
theorem covered1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : (i 0).val / 2000 < cfg1.N := by
    show (i 0).val / 2000 < grid1.N
    rw [N_1]; omega
  obtain ⟨-, -, -, -, e20, e21⟩ := blockIndex1 ⟨(i 0).val / 2000, hN⟩
  have e20' : win1_2.index ⟨(i 0).val / 2000, hN⟩ (0 : Fin 2) = (i 0).val / 2000 := e20
  refine ⟨⟨(i 0).val / 2000, hN⟩, flush1_2 _, ?_⟩
  rw [mem_block1]
  intro a
  match a with
  | ⟨0, _⟩ =>
    show win1_2.index ⟨(i 0).val / 2000, hN⟩ (0 : Fin 2) * 2000 ≤ (i 0).val
      ∧ (i 0).val < win1_2.index ⟨(i 0).val / 2000, hN⟩ (0 : Fin 2) * 2000 + 2000
    omega
  | ⟨1, _⟩ =>
    show win1_2.index ⟨(i 0).val / 2000, hN⟩ (1 : Fin 2) * 256 ≤ (i 1).val
      ∧ (i 1).val < win1_2.index ⟨(i 0).val / 2000, hN⟩ (1 : Fin 2) * 256 + 256
    omega

/-- The array the second layer leaves: the rows times the weight, at every index. -/
theorem arr1 (V : (c : Dev nD) → (b : Ref sig .tc) → Buf (Elt Ideal) ((c : Thread nD τ).loc b)) (c : Dev nD) :
    (dat1 (F := Ideal) V c).arrAt 2 cfg1.N = Cert.GcnSpec.rowsTimes (V c main_v49) (V c main_v31) :=
  (dat1 (F := Ideal) V c).arrAt_eq_of_cover 2 (Cert.GcnSpec.rowsTimes (V c main_v49) (V c main_v31))
    (fun t _ => flushed1 V c t) covered1

end Cert.KernelIdeal.LinearRegions

end
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.FinalRegion.lean ====
/-
  The final classifier: 49 grid points, each computing a [2048, 1024] block of logits.

  Point t multiplies the whole [2048, 256] sample features with rows t·1024 … t·1024 + 1023 of the stored node
  features (contracting the 256 feature coordinates of both) and adds entries t·1024 … t·1024 + 1023 of the stored
  bias row, broadcast over the samples:
      block_t (r, y) = ∑ k, s (r, k) · f (t·1024 + y, k) + b (0, t·1024 + y).
  It writes the block to columns t·1024 … of the [2048, 50000] output. 49 · 1024 = 50176 exceeds 50000, so only the
  first 848 columns of the last block are written. Every column that is written is t·1024 + y < 50000, a real node,
  which sits at that same row of the stored features and that same entry of the stored bias. Column n is written by
  point n / 1024, so the output array ends holding the logits of every sample against every real node.
-/
import proofs.«148454_j55121610277010_2_alg».proof.Proof.Gen.KernelIdeal.Frame
import proofs.«148454_j55121610277010_2_alg».proof.Proof.Spec
import proofs.«148454_j55121610277010_2_alg».proof.Proof.LibGram
import Idealize.ShloMosaic.Lib.Pipeline.Value
import Idealize.ShloMosaic.Lib.ValueIdx
import Idealize.ShloMosaic.PureOps.Ideal.Laws

noncomputable section

open scoped BigOperators

namespace Cert.KernelIdeal.FinalRegion

open Cert.KernelIdeal Cert.KernelIdeal.Gen Idealize.ShloMosaic Idealize.ShloMosaic.ValueIdx
open Idealize.ShloMosaic.TcCoe Idealize.SL.Sem
open Idealize.ShloMosaic.Pipeline (Dat Cfg Window)
open Cert.GcnSpec (padNode logits)

/-- The classifier block at an index: 256 products of a sample row with a node row, plus the node's bias entry. -/
theorem pay_apply (x0 : Vec Ideal S2048x256 .bf16) (x1 : Vec Ideal S1024x256 .bf16) (x2 : Vec Ideal S1x1024 .f32)
    (p : Fin 2048) (q : Fin 1024) :
    k2_pay1 x0 x1 x2 (ix2 p q) = (∑ k : Fin 256, x0 (ix2 p k) * x1 (ix2 q k)) + x2 (ix2 (0 : Fin 1) q) := by
  unfold k2_pay1
  rw [addf_apply, shapeCast_self, shapeCast_self, shapeCast_self]
  refine congrArg₂ (· + ·) ?_ ?_
  · refine (Ideal.matmul_constant_zero_apply (φ₁ := .bf16) (φ₂ := .bf16) dot_S2048x256_S1024x256_S2048x1024_1_1_0_0_n_n none
      (x0 : FVec Ideal S2048x256 .bf16) (x1 : FVec Ideal S1024x256 .bf16) (ix2 p q)).trans ?_
    exact Gram.sum_contr_last dot_S2048x256_S1024x256_S2048x1024_1_1_0_0_n_n rfl rfl rfl rfl
      (fun _ _ => rfl) (fun _ _ => rfl) x0 x1 (ix2 p q)
  · refine broadcastTo_apply x2 broadcasts_S1x1024_S2048x1024 (ix2 p q) (ix2 (0 : Fin 1) q) (fun a => ?_)
    match a with
    | ⟨0, _⟩ => rfl
    | ⟨1, _⟩ => rfl

/-- The block at (p, q) is the logit of sample p against node n once the three loaded blocks are read where the
    sample row p, the node row n and the bias entry n sit. -/
theorem blk_value (x0 : Vec Ideal S2048x256 .bf16) (x1 : Vec Ideal S1024x256 .bf16) (x2 : Vec Ideal S1x1024 .f32)
    (s : (⟨2, ![2048, 256]⟩ : Shape).Idx → EReal) (f : (⟨2, ![50176, 256]⟩ : Shape).Idx → EReal)
    (b : (⟨2, ![1, 50176]⟩ : Shape).Idx → EReal) (p : Fin 2048) (q : Fin 1024) (n : Fin 50000)
    (h0 : ∀ k : Fin 256, x0 (ix2 p k) = s (ix2 p k))
    (h1 : ∀ k : Fin 256, x1 (ix2 q k) = f (ix2 (padNode n) k))
    (h2 : x2 (ix2 (0 : Fin 1) q) = b (ix2 (0 : Fin 1) (padNode n))) :
    k2_pay1 x0 x1 x2 (ix2 p q) = logits s f b (ix2 p n) := by
  rw [pay_apply]
  show _ = (∑ k : Fin 256, s (ix2 p k) * f (ix2 (padNode n) k)) + b (ix2 (0 : Fin 1) (padNode n))
  rw [h2]
  exact congrArg (· + b (ix2 (0 : Fin 1) (padNode n))) (Finset.sum_congr rfl fun k _ => by rw [h0 k, h1 k])

/-- The block indices over the 49 grid points: the samples' window stays at block (0, 0); point t reads block t of
    the node rows and of the bias entries and writes block t of the output's columns; the part of the output's block
    inside the array has all 2048 rows, and its columns stop at the array's 50000th. -/
theorem idx_facts : ∀ t : Fin cfg2.N, win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val
    ∧ win2_3.xsize (grid2.coords t) (0 : Fin 2) = 2048
    ∧ t.val * 1024 + win2_3.xsize (grid2.coords t) (1 : Fin 2) = min (t.val * 1024 + 1024) 50000
    ∧ ((cfg2.win 3).xblock (grid2.coords t)).size 0 = 2048
    ∧ t.val * 1024 + ((cfg2.win 3).xblock (grid2.coords t)).size 1 = min (t.val * 1024 + 1024) 50000
    ∧ t.val < 49 :=
  (by decide +kernel : ∀ t : Fin grid2.N, _)

theorem hz : (![0, 0] : Fin 2 → Nat) = fun _ => 0 := funext fun a => by fin_cases a <;> rfl

section
variable (t : Fin cfg2.N) (j : ((cfg2.win 3).xblock (grid2.coords t)).Idx)

/-- An entry of the part of the output block inside the array: its row is below 2048, its column below 1024, and the
    output column it lands on, t·1024 + its column, is a real node. -/
theorem out_bounds : (j 0).val < 2048 ∧ (j 1).val < 1024 ∧ t.val * 1024 + (j 1).val < 50000 := by
  obtain ⟨-, -, -, -, -, -, -, -, -, -, z0, z1, ht⟩ := idx_facts t
  have hp : (j 0).val < 2048 := lt_of_lt_of_eq (j 0).isLt z0
  have hn : t.val * 1024 + (j 1).val < min (t.val * 1024 + 1024) 50000 :=
    lt_of_lt_of_eq (Nat.add_lt_add_left (j 1).isLt _) z1
  clear z0 z1
  omega

/-- It sits in the array at its own row and at column t·1024 + its column, -/
theorem emb_out (i : S2048x50000.Idx) (h0 : (i 0).val = (j 0).val) (h1 : (i 1).val = t.val * 1024 + (j 1).val) :
    ((cfg2.win 3).blk t).view.emb j = i := by
  obtain ⟨-, -, -, -, -, -, e0, e1, -⟩ := idx_facts t
  refine funext fun a => Fin.ext ?_
  match a with
  | ⟨0, _⟩ => show win2_3.index t (0 : Fin 2) * 2048 + 1 * (j 0).val = (i 0).val; omega
  | ⟨1, _⟩ => show win2_3.index t (1 : Fin 2) * 1024 + 1 * (j 1).val = (i 1).val; omega

/-- and in the whole block at its own coordinates. -/
theorem xinj_out (y : S2048x1024.Idx) (h0 : (y 0).val = (j 0).val) (h1 : (y 1).val = (j 1).val) :
    (cfg2.win 3).xinj (grid2.coords t) j = y := by
  refine funext fun a => Fin.ext ?_
  match a with
  | ⟨0, _⟩ => exact h0.symm
  | ⟨1, _⟩ => exact h1.symm

end

section
variable (V : (c : Dev nD) → (b : Ref sig .tc) → Buf (Elt Ideal) ((c : Thread nD τ).loc b)) (c : Dev nD)

/-- The samples' block at any point is the whole sample array. -/
theorem read_samples (t : Fin cfg2.N) (y : S2048x256.Idx) (i : S2048x256.Idx)
    (h0 : (i 0).val = (y 0).val) (h1 : (i 1).val = (y 1).val) :
    iblk2 (F := Ideal) V c 0 t y = V c main_v71 i := by
  obtain ⟨e0, e1, -⟩ := idx_facts t
  show V c main_v71 (((cfg2.win 0).blk t).view.emb y) = V c main_v71 i
  refine congrArg (V c main_v71) (funext fun a => Fin.ext ?_)
  match a with
  | ⟨0, _⟩ => show win2_0.index t (0 : Fin 2) * 2048 + 1 * (y 0).val = (i 0).val; omega
  | ⟨1, _⟩ => show win2_0.index t (1 : Fin 2) * 256 + 1 * (y 1).val = (i 1).val; omega

/-- Row y of the node block at point t is row t·1024 + y of the stored node features. -/
theorem read_nodes (t : Fin cfg2.N) (y : S1024x256.Idx) (i : S50176x256.Idx)
    (h0 : (i 0).val = t.val * 1024 + (y 0).val) (h1 : (i 1).val = (y 1).val) :
    iblk2 (F := Ideal) V c 1 t y = V c main_v73 i := by
  obtain ⟨-, -, e0, e1, -⟩ := idx_facts t
  show V c main_v73 (((cfg2.win 1).blk t).view.emb y) = V c main_v73 i
  refine congrArg (V c main_v73) (funext fun a => Fin.ext ?_)
  match a with
  | ⟨0, _⟩ => show win2_1.index t (0 : Fin 2) * 1024 + 1 * (y 0).val = (i 0).val; omega
  | ⟨1, _⟩ => show win2_1.index t (1 : Fin 2) * 256 + 1 * (y 1).val = (i 1).val; omega

/-- Entry y of the bias block at point t is entry t·1024 + y of the stored bias row. -/
theorem read_bias (t : Fin cfg2.N) (y : S1x1024.Idx) (i : S1x50176.Idx)
    (h0 : (i 0).val = (y 0).val) (h1 : (i 1).val = t.val * 1024 + (y 1).val) :
    iblk2 (F := Ideal) V c 2 t y = V c main_v75 i := by
  obtain ⟨-, -, -, -, e0, e1, -⟩ := idx_facts t
  show V c main_v75 (((cfg2.win 2).blk t).view.emb y) = V c main_v75 i
  refine congrArg (V c main_v75) (funext fun a => Fin.ext ?_)
  match a with
  | ⟨0, _⟩ => show win2_2.index t (0 : Fin 2) * 1 + 1 * (y 0).val = (i 0).val; omega
  | ⟨1, _⟩ => show win2_2.index t (1 : Fin 2) * 1024 + 1 * (y 1).val = (i 1).val; omega

end

section
variable (V : (c : Dev nD) → (b : Ref sig .tc) → Buf (Elt Ideal) ((c : Thread nD τ).loc b)) (c : Dev nD)

/-- What point t writes back is its block of the logits: entry (r, y) of the part of the block inside the array is
    output column t·1024 + y, a real node, whose feature row and bias entry the point's blocks hold at row y. -/
theorem flushed_eq (t : Fin cfg2.N) :
    (dat2 (F := Ideal) V c).flushed 3 t
      = ((cfg2.win 3).blk t).view.read (Elt Ideal) (logits (V c main_v71) (V c main_v73) (V c main_v75)) := by
  show (cfg2.win 3).cut (grid2.coords t) ((dat2 V c).after 3 t) = _
  rw [after2_3]
  unfold out2_3
  rw [View.canon_unit_zero hz]
  simp only [View.ld_unit_zero (S := S2048x256) hz, View.ld_unit_zero (S := S1024x256) hz,
    View.ld_unit_zero (S := S1x1024) hz]
  funext j
  obtain ⟨hp, hq, hn⟩ := out_bounds t j
  show k2_pay1 (iblk2 V c 0 t) (iblk2 V c 1 t) (iblk2 V c 2 t) ((cfg2.win 3).xinj (grid2.coords t) j)
      = logits (V c main_v71) (V c main_v73) (V c main_v75) (((cfg2.win 3).blk t).view.emb j)
  rw [xinj_out t j (ix2 (⟨(j 0).val, hp⟩ : Fin 2048) (⟨(j 1).val, hq⟩ : Fin 1024)) rfl rfl,
    emb_out t j (ix2 (⟨(j 0).val, hp⟩ : Fin 2048) (⟨t.val * 1024 + (j 1).val, hn⟩ : Fin 50000)) rfl rfl]
  exact blk_value (iblk2 V c 0 t) (iblk2 V c 1 t) (iblk2 V c 2 t) (V c main_v71) (V c main_v73) (V c main_v75)
    ⟨(j 0).val, hp⟩ ⟨(j 1).val, hq⟩ ⟨t.val * 1024 + (j 1).val, hn⟩
    (fun k => read_samples V c t _ _ rfl rfl)
    (fun k => read_nodes V c t _ _ rfl rfl)
    (read_bias V c t _ _ rfl rfl)

end

/-- An index of the output array is in point t's block iff on each axis it lies from the block's first coordinate
    up to the end of the block's part inside the array. -/
theorem mem_blk (t : Fin cfg2.N) (i : S2048x50000.Idx) :
    i ∈ ((cfg2.win 3).blk t).view.set ↔ ∀ a : Fin 2, win2_3.index t a * S2048x1024.size a ≤ (i a).val
      ∧ (i a).val < win2_3.index t a * S2048x1024.size a + win2_3.xsize (grid2.coords t) a := by
  show i ∈ ((View.whole main_v76).slice (win2_3.rect t)).set ↔ _
  rw [View.set_slice_whole, Rect.mem_set_unit]
  exact Iff.rfl

/-- Every output column n < 50000 lies in the block of point n / 1024: for the first 48 points the block's 1024
    columns, for the last the 848 columns left before the array's end. -/
theorem cover (i : S2048x50000.Idx) :
    ∃ t : Fin cfg2.N, (cfg2.win 3).flush t = true ∧ i ∈ ((cfg2.win 3).blk t).view.set := by
  have hi0 : (i 0).val < 2048 := (i 0).isLt
  have hi1 : (i 1).val < 50000 := (i 1).isLt
  obtain ⟨t, ht⟩ : ∃ t : Fin cfg2.N, t.val = (i 1).val / 1024 :=
    ⟨⟨(i 1).val / 1024, by show (i 1).val / 1024 < grid2.N; rw [N_2]; omega⟩, rfl⟩
  refine ⟨t, flush2_3 t, ?_⟩
  rw [mem_blk]
  obtain ⟨-, -, -, -, -, -, e0, e1, s0, s1, -⟩ := idx_facts t
  intro a
  match a with
  | ⟨0, _⟩ =>
    show win2_3.index t (0 : Fin 2) * 2048 ≤ (i 0).val
      ∧ (i 0).val < win2_3.index t (0 : Fin 2) * 2048 + win2_3.xsize (grid2.coords t) (0 : Fin 2)
    rw [e0, s0]; clear e0 e1 s0 s1; omega
  | ⟨1, _⟩ =>
    show win2_3.index t (1 : Fin 2) * 1024 ≤ (i 1).val
      ∧ (i 1).val < win2_3.index t (1 : Fin 2) * 1024 + win2_3.xsize (grid2.coords t) (1 : Fin 2)
    rw [e1, s1]; clear e0 e1 s0 s1; omega

/-- THE OUTPUT ARRAY after the last write-back, whatever the region found in its buffers: the logits of the
    2048 samples against the 50000 real nodes. -/
theorem arr2 (V : (c : Dev nD) → (b : Ref sig .tc) → Buf (Elt Ideal) ((c : Thread nD τ).loc b)) (c : Dev nD) :
    (dat2 (F := Ideal) V c).arrAt 3 cfg2.N = logits (V c main_v71) (V c main_v73) (V c main_v75) :=
  (dat2 (F := Ideal) V c).arrAt_eq_of_cover 3 (logits (V c main_v71) (V c main_v73) (V c main_v75))
    (fun t _ => flushed_eq V c t) cover

end Cert.KernelIdeal.FinalRegion

end
-- ==== Proof.Boundaries.lean ====
/-
  The contents of the kernel's buffers at the boundaries of its run, as terms of the launch memory.

  The run alternates stretches of host operations with the three regions. At each boundary the buffers the later
  segments read hold: the edge sources, targets and normalisation (functions of the edge list only, computed once before
  region 0 and never overwritten); region 0's output, the node embeddings times the first weight; after the next stretch
  the first aggregation passed through max(·, 0); region 1's output, that times the second weight; after the last
  stretches the sample features, the second aggregation extended by 176 zero rows, and the node bias extended by 176
  zeros as a row — the three arrays region 2 reads; and region 2's output, their logits formula. A region leaves every
  buffer but its own arrays untouched, and its output array at the whole-array function of its inputs.
-/
import proofs.«148454_j55121610277010_2_alg».proof.Proof.Gen.KernelIdeal.Frame
import proofs.«148454_j55121610277010_2_alg».proof.Proof.HostStages
import proofs.«148454_j55121610277010_2_alg».proof.Proof.LinearRegions
import proofs.«148454_j55121610277010_2_alg».proof.Proof.FinalRegion
import proofs.«148454_j55121610277010_2_alg».proof.Proof.Spec
import proofs.«148454_j55121610277010_2_alg».proof.Proof.Terms

set_option maxRecDepth 16384

noncomputable section

namespace Cert.KernelIdeal.Boundaries

open Cert.KernelIdeal Cert.KernelIdeal.Gen Cert.KernelIdeal.Facts₀ Cert.KernelIdeal.Facts
open Idealize.ShloMosaic Idealize.ShloMosaic.TcCoe Idealize.SL.Sem Idealize.ShloMosaic.StableHlo
open Cert.GcnTerms (srcOf dstOf normOf layer relu sample)
open Cert.GcnSpec (rowsTimes logits)
open Cert.KernelIdeal.HostStages

variable (m : (ℓ : Loc nD τ sig) → Buf (Elt Ideal) ℓ) (ρ : Dev nD → PrngReg) (c : Dev nD)

/-! ## Region 0's entry -/

theorem W3_src : W3 m ρ c (Proc.devRef .tc main_v5) = srcOf (m ((c : Thread nD τ).loc main_arg1)) := A_src (W0 m ρ c)
theorem W3_dst : W3 m ρ c (Proc.devRef .tc main_v6) = dstOf (m ((c : Thread nD τ).loc main_arg1)) := A_dst (W0 m ρ c)
theorem W3_nrm : W3 m ρ c (Proc.devRef .tc main_v29) = normOf (srcOf (m ((c : Thread nD τ).loc main_arg1))) (dstOf (m ((c : Thread nD τ).loc main_arg1))) := A_nrm (W0 m ρ c)
theorem W3_w1 : W3 m ρ c (Proc.devRef .tc main_v30) = truncf (F := Ideal) .bf16 (m ((c : Thread nD τ).loc main_arg3)) Facts₀.bitsLt_bf16_f32 := A_w1 (W0 m ρ c)
theorem W3_w2 : W3 m ρ c (Proc.devRef .tc main_v31) = truncf (F := Ideal) .bf16 (m ((c : Thread nD τ).loc main_arg5)) Facts₀.bitsLt_bf16_f32 := A_w2 (W0 m ρ c)
theorem W3_arg0 : W3 m ρ c (Proc.devRef .tc main_arg0) = m ((c : Thread nD τ).loc main_arg0) := A_main_arg0 (W0 m ρ c)
theorem W3_arg2 : W3 m ρ c (Proc.devRef .tc main_arg2) = m ((c : Thread nD τ).loc main_arg2) := A_main_arg2 (W0 m ρ c)
theorem W3_arg4 : W3 m ρ c (Proc.devRef .tc main_arg4) = m ((c : Thread nD τ).loc main_arg4) := A_main_arg4 (W0 m ρ c)
theorem W3_arg6 : W3 m ρ c (Proc.devRef .tc main_arg6) = m ((c : Thread nD τ).loc main_arg6) := A_main_arg6 (W0 m ρ c)
theorem W3_arg7 : W3 m ρ c (Proc.devRef .tc main_arg7) = m ((c : Thread nD τ).loc main_arg7) := A_main_arg7 (W0 m ρ c)
theorem W3_arg8 : W3 m ρ c (Proc.devRef .tc main_arg8) = m ((c : Thread nD τ).loc main_arg8) := A_main_arg8 (W0 m ρ c)
theorem W3_arg9 : W3 m ρ c (Proc.devRef .tc main_arg9) = m ((c : Thread nD τ).loc main_arg9) := A_main_arg9 (W0 m ρ c)

/-! ## Region 0's exit -/

theorem W4_src : W4 m ρ c (Proc.devRef .tc main_v5) = srcOf (m ((c : Thread nD τ).loc main_arg1)) := (W4_of_ne m ρ c main_v5 (by decide)).trans (W3_src m ρ c)
theorem W4_dst : W4 m ρ c (Proc.devRef .tc main_v6) = dstOf (m ((c : Thread nD τ).loc main_arg1)) := (W4_of_ne m ρ c main_v6 (by decide)).trans (W3_dst m ρ c)
theorem W4_nrm : W4 m ρ c (Proc.devRef .tc main_v29) = normOf (srcOf (m ((c : Thread nD τ).loc main_arg1))) (dstOf (m ((c : Thread nD τ).loc main_arg1))) := (W4_of_ne m ρ c main_v29 (by decide)).trans (W3_nrm m ρ c)
theorem W4_w2 : W4 m ρ c (Proc.devRef .tc main_v31) = truncf (F := Ideal) .bf16 (m ((c : Thread nD τ).loc main_arg5)) Facts₀.bitsLt_bf16_f32 := (W4_of_ne m ρ c main_v31 (by decide)).trans (W3_w2 m ρ c)
theorem W4_arg0 : W4 m ρ c (Proc.devRef .tc main_arg0) = m ((c : Thread nD τ).loc main_arg0) := (W4_of_ne m ρ c main_arg0 (by decide)).trans (W3_arg0 m ρ c)
theorem W4_arg4 : W4 m ρ c (Proc.devRef .tc main_arg4) = m ((c : Thread nD τ).loc main_arg4) := (W4_of_ne m ρ c main_arg4 (by decide)).trans (W3_arg4 m ρ c)
theorem W4_arg6 : W4 m ρ c (Proc.devRef .tc main_arg6) = m ((c : Thread nD τ).loc main_arg6) := (W4_of_ne m ρ c main_arg6 (by decide)).trans (W3_arg6 m ρ c)
theorem W4_arg7 : W4 m ρ c (Proc.devRef .tc main_arg7) = m ((c : Thread nD τ).loc main_arg7) := (W4_of_ne m ρ c main_arg7 (by decide)).trans (W3_arg7 m ρ c)
theorem W4_arg8 : W4 m ρ c (Proc.devRef .tc main_arg8) = m ((c : Thread nD τ).loc main_arg8) := (W4_of_ne m ρ c main_arg8 (by decide)).trans (W3_arg8 m ρ c)
theorem W4_arg9 : W4 m ρ c (Proc.devRef .tc main_arg9) = m ((c : Thread nD τ).loc main_arg9) := (W4_of_ne m ρ c main_arg9 (by decide)).trans (W3_arg9 m ρ c)
/-- Region 0 leaves the node embeddings times the first weight. -/
theorem W4_out : W4 m ρ c (Proc.devRef .tc main_v32) = rowsTimes (m ((c : Thread nD τ).loc main_arg2)) (truncf (F := Ideal) .bf16 (m ((c : Thread nD τ).loc main_arg3)) Facts₀.bitsLt_bf16_f32) :=
  (W4_arr m ρ c 2).trans ((Cert.KernelIdeal.LinearRegions.arr0 (V3 m ρ) c).trans
    (congrArg₂ rowsTimes (W3_arg2 m ρ c) (W3_w1 m ρ c)))

/-! ## Region 1's entry -/

theorem W6_src : W6 m ρ c (Proc.devRef .tc main_v5) = srcOf (m ((c : Thread nD τ).loc main_arg1)) := (B_main_v5 (W4 m ρ c)).trans (W4_src m ρ c)
theorem W6_dst : W6 m ρ c (Proc.devRef .tc main_v6) = dstOf (m ((c : Thread nD τ).loc main_arg1)) := (B_main_v6 (W4 m ρ c)).trans (W4_dst m ρ c)
theorem W6_nrm : W6 m ρ c (Proc.devRef .tc main_v29) = normOf (srcOf (m ((c : Thread nD τ).loc main_arg1))) (dstOf (m ((c : Thread nD τ).loc main_arg1))) := (B_main_v29 (W4 m ρ c)).trans (W4_nrm m ρ c)
theorem W6_w2 : W6 m ρ c (Proc.devRef .tc main_v31) = truncf (F := Ideal) .bf16 (m ((c : Thread nD τ).loc main_arg5)) Facts₀.bitsLt_bf16_f32 := (B_main_v31 (W4 m ρ c)).trans (W4_w2 m ρ c)
theorem W6_arg0 : W6 m ρ c (Proc.devRef .tc main_arg0) = m ((c : Thread nD τ).loc main_arg0) := (B_main_arg0 (W4 m ρ c)).trans (W4_arg0 m ρ c)
theorem W6_arg6 : W6 m ρ c (Proc.devRef .tc main_arg6) = m ((c : Thread nD τ).loc main_arg6) := (B_main_arg6 (W4 m ρ c)).trans (W4_arg6 m ρ c)
theorem W6_arg7 : W6 m ρ c (Proc.devRef .tc main_arg7) = m ((c : Thread nD τ).loc main_arg7) := (B_main_arg7 (W4 m ρ c)).trans (W4_arg7 m ρ c)
theorem W6_arg8 : W6 m ρ c (Proc.devRef .tc main_arg8) = m ((c : Thread nD τ).loc main_arg8) := (B_main_arg8 (W4 m ρ c)).trans (W4_arg8 m ρ c)
theorem W6_arg9 : W6 m ρ c (Proc.devRef .tc main_arg9) = m ((c : Thread nD τ).loc main_arg9) := (B_main_arg9 (W4 m ρ c)).trans (W4_arg9 m ρ c)
/-- The first aggregation, passed through max(·, 0). -/
theorem W6_act : W6 m ρ c (Proc.devRef .tc main_v49) = relu (F := Ideal) (layer (rowsTimes (m ((c : Thread nD τ).loc main_arg2)) (truncf (F := Ideal) .bf16 (m ((c : Thread nD τ).loc main_arg3)) Facts₀.bitsLt_bf16_f32)) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg4))) :=
  (B_out (W4 m ρ c)).trans (by rw [W4_out, W4_src, W4_dst, W4_nrm, W4_arg4])

/-! ## Region 1's exit -/

theorem W7_src : W7 m ρ c (Proc.devRef .tc main_v5) = srcOf (m ((c : Thread nD τ).loc main_arg1)) := (W7_of_ne m ρ c main_v5 (by decide)).trans (W6_src m ρ c)
theorem W7_dst : W7 m ρ c (Proc.devRef .tc main_v6) = dstOf (m ((c : Thread nD τ).loc main_arg1)) := (W7_of_ne m ρ c main_v6 (by decide)).trans (W6_dst m ρ c)
theorem W7_nrm : W7 m ρ c (Proc.devRef .tc main_v29) = normOf (srcOf (m ((c : Thread nD τ).loc main_arg1))) (dstOf (m ((c : Thread nD τ).loc main_arg1))) := (W7_of_ne m ρ c main_v29 (by decide)).trans (W6_nrm m ρ c)
theorem W7_arg0 : W7 m ρ c (Proc.devRef .tc main_arg0) = m ((c : Thread nD τ).loc main_arg0) := (W7_of_ne m ρ c main_arg0 (by decide)).trans (W6_arg0 m ρ c)
theorem W7_arg6 : W7 m ρ c (Proc.devRef .tc main_arg6) = m ((c : Thread nD τ).loc main_arg6) := (W7_of_ne m ρ c main_arg6 (by decide)).trans (W6_arg6 m ρ c)
theorem W7_arg7 : W7 m ρ c (Proc.devRef .tc main_arg7) = m ((c : Thread nD τ).loc main_arg7) := (W7_of_ne m ρ c main_arg7 (by decide)).trans (W6_arg7 m ρ c)
theorem W7_arg8 : W7 m ρ c (Proc.devRef .tc main_arg8) = m ((c : Thread nD τ).loc main_arg8) := (W7_of_ne m ρ c main_arg8 (by decide)).trans (W6_arg8 m ρ c)
theorem W7_arg9 : W7 m ρ c (Proc.devRef .tc main_arg9) = m ((c : Thread nD τ).loc main_arg9) := (W7_of_ne m ρ c main_arg9 (by decide)).trans (W6_arg9 m ρ c)
/-- Region 1 leaves the activated first layer times the second weight. -/
theorem W7_out : W7 m ρ c (Proc.devRef .tc main_v50) = rowsTimes (relu (F := Ideal) (layer (rowsTimes (m ((c : Thread nD τ).loc main_arg2)) (truncf (F := Ideal) .bf16 (m ((c : Thread nD τ).loc main_arg3)) Facts₀.bitsLt_bf16_f32)) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg4)))) (truncf (F := Ideal) .bf16 (m ((c : Thread nD τ).loc main_arg5)) Facts₀.bitsLt_bf16_f32) :=
  (W7_arr m ρ c 2).trans ((Cert.KernelIdeal.LinearRegions.arr1 (V6 m ρ) c).trans
    (congrArg₂ rowsTimes (W6_act m ρ c) (W6_w2 m ρ c)))

/-! ## Region 2's entry -/

/-- The sample features, narrowed. -/
theorem W12_sample : W12 m ρ c (Proc.devRef .tc main_v71) = truncf (F := Ideal) .bf16 (sample (F := Ideal) (m ((c : Thread nD τ).loc main_arg0)) (m ((c : Thread nD τ).loc main_arg7)) (m ((c : Thread nD τ).loc main_arg8))) Facts₀.bitsLt_bf16_f32 :=
  (C_sample (W7 m ρ c)).trans (by rw [W7_arg0, W7_arg7, W7_arg8])
/-- The second aggregation, narrowed and extended by 176 zero rows. -/
theorem W12_nodes : W12 m ρ c (Proc.devRef .tc main_v73) = pad S50176x256 ![0, 0] ![176, 0] ![0, 0]
      (truncf (F := Ideal) .bf16 (layer (rowsTimes (relu (F := Ideal) (layer (rowsTimes (m ((c : Thread nD τ).loc main_arg2)) (truncf (F := Ideal) .bf16 (m ((c : Thread nD τ).loc main_arg3)) Facts₀.bitsLt_bf16_f32)) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg4)))) (truncf (F := Ideal) .bf16 (m ((c : Thread nD τ).loc main_arg5)) Facts₀.bitsLt_bf16_f32)) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg6))) Facts₀.bitsLt_bf16_f32)
      (sitofp (F := Ideal) .bf16 (constantI S_ 32 0#32)) Facts₀.pads_S50000x256_S50176x256_01760_000 Facts₀.h_S_ :=
  (C_nodes (W7 m ρ c)).trans (by rw [W7_out, W7_src, W7_dst, W7_nrm, W7_arg6])
/-- The node bias extended by 176 zeros, as a row. -/
theorem W12_bias : W12 m ρ c (Proc.devRef .tc main_v75) = shapeCast S1x50176 (pad S50176 ![0] ![176] ![0] (m ((c : Thread nD τ).loc main_arg9)) (sitofp (F := Ideal) .f32 (constantI S_ 32 0#32))
      Facts₀.pads_S50000_S50176_01760 Facts₀.h_S_) Facts₀.shapeCasts_S50176_S1x50176 :=
  (C_bias (W7 m ρ c)).trans (by rw [W7_arg9])

/-! ## The result -/

/-- Region 2 leaves the logits formula of the three arrays it reads. -/
theorem W13_out : W13 m ρ c (Proc.devRef .tc main_v76) = logits
      (truncf (F := Ideal) .bf16 (sample (F := Ideal) (m ((c : Thread nD τ).loc main_arg0)) (m ((c : Thread nD τ).loc main_arg7)) (m ((c : Thread nD τ).loc main_arg8))) Facts₀.bitsLt_bf16_f32)
      (pad S50176x256 ![0, 0] ![176, 0] ![0, 0] (truncf (F := Ideal) .bf16 (layer (rowsTimes (relu (F := Ideal) (layer (rowsTimes (m ((c : Thread nD τ).loc main_arg2)) (truncf (F := Ideal) .bf16 (m ((c : Thread nD τ).loc main_arg3)) Facts₀.bitsLt_bf16_f32)) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg4)))) (truncf (F := Ideal) .bf16 (m ((c : Thread nD τ).loc main_arg5)) Facts₀.bitsLt_bf16_f32)) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg6))) Facts₀.bitsLt_bf16_f32)
        (sitofp (F := Ideal) .bf16 (constantI S_ 32 0#32)) Facts₀.pads_S50000x256_S50176x256_01760_000 Facts₀.h_S_)
      (shapeCast S1x50176 (pad S50176 ![0] ![176] ![0] (m ((c : Thread nD τ).loc main_arg9)) (sitofp (F := Ideal) .f32 (constantI S_ 32 0#32))
        Facts₀.pads_S50000_S50176_01760 Facts₀.h_S_) Facts₀.shapeCasts_S50176_S1x50176) := by
  refine (W13_arr m ρ c 3).trans ?_
  rw [Cert.KernelIdeal.FinalRegion.arr2 (V12 m ρ) c]
  rw [show V12 m ρ c main_v71 = _ from W12_sample m ρ c, show V12 m ρ c main_v73 = _ from W12_nodes m ρ c,
    show V12 m ρ c main_v75 = _ from W12_bias m ρ c]

end Cert.KernelIdeal.Boundaries

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.Bridge.lean ====
/-
  The two sides are one function.

  Kernel side: logits s f b (r, n) = ∑ k, s(r, k) · f(n, k) + b(0, n), where f is the node-feature array extended by
  176 zero rows and b the node bias extended by 176 zeros and laid out as a row — a real node n < 50000 reads row n and
  entry n of the unextended arrays. Reference side: (s · nodesᵀ)(r, n) + bias(n), the product a dot_general contracting
  s's columns with the transposed array's rows: ∑ k, s(r, k) · nodesᵀ(k, n) = ∑ k, s(r, k) · nodes(n, k).
  The node rows times a weight, ∑ k, x(n, k) · w(k, c), is the host's dot_general of the two (rowsTimes_eq_dot), so the
  node features built over the regions' products are the node features built over the reference's.
-/
import proofs.«148454_j55121610277010_2_alg».proof.Proof.Gen.ReferenceIdeal
import proofs.«148454_j55121610277010_2_alg».proof.Proof.Terms
import proofs.«148454_j55121610277010_2_alg».proof.Proof.Spec
import proofs.«148454_j55121610277010_2_alg».proof.Proof.LibContract
import proofs.«148454_j55121610277010_2_alg».proof.Proof.LibKeepdims
import Idealize.ShloMosaic.PureOps.Ideal.Laws
import Idealize.ShloMosaic.Lib.Pipeline.Value
import Idealize.ShloMosaic.Lib.KernelVsHost
import Idealize.ShloMosaic.Lib.ValueIdx

noncomputable section

open scoped BigOperators

namespace Cert.GcnBridge

open Cert.ReferenceIdeal Cert.ReferenceIdeal.Facts₀ Cert.ReferenceIdeal.Facts
open Idealize.ShloMosaic Idealize.ShloMosaic.ValueIdx
open Cert.GcnTerms Cert.GcnSpec

/-- Node rows times a weight is the host's dot_general of the two. -/
theorem rowsTimes_eq_dot (x : FVec Ideal S50000x256 .f32) (w : FVec Ideal S256x256 .f32) :
    rowsTimes x w = Host.dotGeneral dot_S50000x256_S256x256_S50000x256_1_0_0_1_n_n none x w := by
  funext i
  simp only [Host.dotGeneral]
  rw [Ideal.dotGeneral_apply]
  exact (Contract2.sum_contr_eq_sum_fin dot_S50000x256_S256x256_S50000x256_1_0_0_1_n_n rfl rfl rfl rfl
    (fun _ _ => rfl) (fun _ _ => rfl) x w i).symm

/-- The node features over the two products written as plain sums are the reference's node features. -/
theorem nodes_of_rowsTimes (e : (⟨S2x99998, .i32⟩ : BufTy).Contents (Elt Ideal)) (a2 : FVec Ideal S50000x256 .f32) (a3 : FVec Ideal S256x256 .f32)
    (a4 : FVec Ideal S256 .f32) (a5 : FVec Ideal S256x256 .f32) (a6 : FVec Ideal S256 .f32) :
    layer (rowsTimes (relu (layer (rowsTimes a2 a3) (srcOf e) (dstOf e) (normOf (srcOf e) (dstOf e)) a4)) a5)
        (srcOf e) (dstOf e) (normOf (srcOf e) (dstOf e)) a6
      = nodes e a2 a3 a4 a5 a6 := by
  unfold nodes
  rw [rowsTimes_eq_dot, rowsTimes_eq_dot]

/-- The kernel-side formula at an entry. -/
theorem logits_apply (s : (⟨2, ![2048, 256]⟩ : Shape).Idx → EReal) (f : (⟨2, ![50176, 256]⟩ : Shape).Idx → EReal) (b : (⟨2, ![1, 50176]⟩ : Shape).Idx → EReal)
    (r : Fin 2048) (n : Fin 50000) :
    logits s f b (ix2 r n) = (∑ k : Fin 256, s (ix2 r k) * f (ix2 (padNode n) k)) + b (ix2 (0 : Fin 1) (padNode n)) := rfl

/-- The reference's logits at an entry: the contraction over the 256 features, plus the node's bias. -/
theorem refOut_apply (a0 : FVec Ideal S2048x512 .f32) (e : (⟨S2x99998, .i32⟩ : BufTy).Contents (Elt Ideal))
    (a2 : FVec Ideal S50000x256 .f32) (a3 : FVec Ideal S256x256 .f32) (a4 : FVec Ideal S256 .f32)
    (a5 : FVec Ideal S256x256 .f32) (a6 : FVec Ideal S256 .f32) (a7 : FVec Ideal S512x256 .f32) (a8 : FVec Ideal S256 .f32)
    (a9 : FVec Ideal S50000 .f32) (r : Fin 2048) (n : Fin 50000) :
    refOut a0 e a2 a3 a4 a5 a6 a7 a8 a9 (ix2 r n)
      = (∑ k : Fin 256, sample a0 a7 a8 (ix2 r k) * nodes e a2 a3 a4 a5 a6 (ix2 n k)) + a9 (ix1 n) := by
  unfold refOut
  rw [addf_apply]
  refine congrArg₂ (· + ·) ?_ (Keepdims.cols_apply bcast_S50000_S1x50000_1 bcast_S1x50000_S2048x50000_0_1 a9 r n)
  simp only [Host.dotGeneral]
  rw [Ideal.dotGeneral_apply]
  refine (Contract2.sum_contr_eq_sum_fin dot_S2048x256_S256x50000_S2048x50000_1_0_0_1_n_n rfl rfl rfl rfl
    (fun _ _ => rfl) (fun _ _ => rfl) _ _ _).trans ?_
  refine Finset.sum_congr rfl fun k _ => congrArg₂ (· * ·) rfl ?_
  exact transpose_apply [1, 0] _ transposes_S50000x256_S256x50000_1_0 (ix2 k n) (ix2 n k)
    (fun b => by match b with | ⟨0, _⟩ => rfl | ⟨1, _⟩ => rfl)

/-- The kernel-side formula over the zero-extended arrays is the reference's logits. -/
theorem logits_eq_refOut (a0 : FVec Ideal S2048x512 .f32) (e : (⟨S2x99998, .i32⟩ : BufTy).Contents (Elt Ideal))
    (a2 : FVec Ideal S50000x256 .f32) (a3 : FVec Ideal S256x256 .f32) (a4 : FVec Ideal S256 .f32)
    (a5 : FVec Ideal S256x256 .f32) (a6 : FVec Ideal S256 .f32) (a7 : FVec Ideal S512x256 .f32) (a8 : FVec Ideal S256 .f32)
    (a9 : FVec Ideal S50000 .f32)
    (hp2 : S50000x256.Pads ![0, 0] ![176, 0] ![0, 0] ⟨2, ![50176, 256]⟩) (hp1 : S50000.Pads ![0] ![176] ![0] ⟨1, ![50176]⟩)
    (hu : 0 < S_.numel) (hc : (⟨1, ![50176]⟩ : Shape).ShapeCasts ⟨2, ![1, 50176]⟩) (z2 z1 : S_.Idx → EReal) :
    logits (sample (F := Ideal) a0 a7 a8) (pad ⟨2, ![50176, 256]⟩ ![0, 0] ![176, 0] ![0, 0] (nodes (F := Ideal) e a2 a3 a4 a5 a6) z2 hp2 hu)
        (shapeCast ⟨2, ![1, 50176]⟩ (pad ⟨1, ![50176]⟩ ![0] ![176] ![0] a9 z1 hp1 hu) hc)
      = refOut a0 e a2 a3 a4 a5 a6 a7 a8 a9 := by
  funext i
  obtain ⟨r, n, rfl⟩ : ∃ (r : Fin 2048) (n : Fin 50000), i = ix2 r n := ⟨i 0, i 1, eq_ix2 i⟩
  rw [logits_apply, refOut_apply]
  refine congrArg₂ (· + ·) (Finset.sum_congr rfl fun k _ => congrArg₂ (· * ·) rfl ?_) ?_
  · -- row n of the extended node features is row n of the node features
    refine pad_apply_of_inside ![0, 0] ![176, 0] ![0, 0] _ z2 hp2 hu (ix2 (padNode n) k) (ix2 n k) (fun a => ?_)
    match a with
    | ⟨0, _⟩ => show n.val = 0 + n.val * (0 + 1); omega
    | ⟨1, _⟩ => show k.val = 0 + k.val * (0 + 1); omega
  · -- entry n of the extended bias row is entry n of the bias
    refine (shapeCast_apply _ hc (ix2 (0 : Fin 1) (padNode n)) (ix1 (padNode n)) ?_).trans ?_
    · rw [Shape.rowMajor_val_one, Shape.rowMajor_val_two]
      show n.val = 0 * 50176 + n.val
      omega
    · refine pad_apply_of_inside ![0] ![176] ![0] a9 z1 hp1 hu (ix1 (padNode n)) (ix1 n) (fun a => ?_)
      match a with
      | ⟨0, _⟩ => show n.val = 0 + n.val * (0 + 1); omega

end Cert.GcnBridge

end
-- ==== Proof.KernelValue.lean ====
/-
  The idealized kernel's result is the reference's logits formula of the launch arguments.

  At the last boundary the result array holds the kernel-side formula of the sample features, the zero-extended node
  features and the zero-extended bias row. Narrowing to bf16 is the identity on the extended reals; the node features
  over the two regions' products (plain sums) are the node features over the host's products; and the kernel-side
  formula over the extended arrays is the reference's — so the array holds the reference's function of the arguments.
-/
import proofs.«148454_j55121610277010_2_alg».proof.Proof.Boundaries
import proofs.«148454_j55121610277010_2_alg».proof.Proof.Bridge

set_option maxRecDepth 16384

noncomputable section

namespace Cert.KernelIdeal.KernelValue

open Cert.KernelIdeal Cert.KernelIdeal.Gen
open Idealize.ShloMosaic Idealize.ShloMosaic.TcCoe Idealize.SL.Sem

/-- On the extended reals a change to a narrower float format changes nothing. -/
theorem truncf_ideal {s : Shape} {φ ψ : FTy} (a : FVec Ideal s φ) (h : ψ.bits < φ.bits) :
    (truncf (F := Ideal) ψ a h : s.Idx → EReal) = (a : s.Idx → EReal) := rfl

/-- The result array after the run, as the reference's function of the launch arguments. -/
theorem kernel_value (m : (ℓ : Loc nD τ sig) → Buf (Elt Ideal) ℓ) (ρ : Dev nD → PrngReg) (c : Dev nD) :
    W13 m ρ c (Proc.devRef .tc main_v76) = Cert.GcnTerms.refOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Cert.KernelIdeal.Boundaries.W13_out]
  simp only [truncf_ideal]
  rw [Cert.GcnBridge.nodes_of_rowsTimes]
  exact Cert.GcnBridge.logits_eq_refOut _ _ _ _ _ _ _ _ _ _ _ _ _ _ _ _

end Cert.KernelIdeal.KernelValue

end
-- ==== Proof.RefTerm.lean ====
/-
  The reference's result is its logits formula of the ten arguments.

  The reference's run ends with its result array at the composed term of its 128 host operations. Grouped, that term
  is: the sample features x · W + b, against the transposed node features after two aggregation layers (each layer's
  product a dot_general, the edge normalisation recomputed by the second layer as the same term), plus the node bias
  spread down the rows. The grouping unfolds back to the composed term, so the two are one term.
-/
import proofs.«148454_j55121610277010_2_alg».proof.Proof.RefRunPatched
import proofs.«148454_j55121610277010_2_alg».proof.Proof.Terms

set_option maxRecDepth 16384

noncomputable section

namespace Cert.ReferenceIdeal.RefTerm

open Cert.ReferenceIdeal Cert.ReferenceIdeal.Gen Idealize.ShloMosaic Idealize.ShloMosaic.TcCoe Idealize.SL.Sem

variable {F : FTy → Type} [FloatOps F]

/-- The run's result term, grouped. -/
theorem res_eq (m : (ℓ : Loc nD τ sig) → Buf (Elt F) ℓ) (c : Dev nD) :
    Cert.ReferenceIdeal.ValueP.res_main_v99 m c
      = Cert.GcnTerms.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.ValueP.res_main_v99
  rfl

end Cert.ReferenceIdeal.RefTerm

end
-- ==== Proof.lean ====
/-
  A two-layer graph-convolution classifier: the kernel against its jnp reference, over the extended reals.

  Both programs compute logits(r, n) = ∑ k, s(r, k) · h(n, k) + bias(n), where s = x · fc_W + fc_b are the sample
  features and h the node features after two aggregation layers: each layer multiplies the node rows by a weight,
  carries every edge's source row, scaled by dinv(src) · dinv(dst), to the edge's target, adds up what arrives and adds a
  bias row; max(·, 0) sits between the layers; dinv is the inverse square root of the in-degree with self-loops.
  The kernel computes the three matrix products in three tiled regions — the node rows in 25 blocks of 2000 rows, the
  logits in 49 column blocks of 1024, the last one cut at column 50000, over node features and bias extended by 176
  zeros that only the cut columns would read — and narrows operands to bf16, which on the extended reals is the
  identity; it computes the edge normalisation once where the reference recomputes the same term per layer. A block
  product is the plain sum ∑ k over the 256 shared coordinates, which is what the host's dot_general is; sums are only
  regrouped, never distributed, so no finiteness of the inputs is used.
  The three frames are the generated frame proofs (the reference's: its run with the result dropped); the kernel's
  idealization rewrote nothing, so there is nothing to preserve; the algebraic claim puts the kernel's run, whose result
  array is read off the last region's write-backs, beside the reference's run, whose result term is the same function
  of arguments that agree.
-/
import proofs.«148454_j55121610277010_2_alg».proof.Defs
import proofs.«148454_j55121610277010_2_alg».proof.Proof.Gen.Kernel
import proofs.«148454_j55121610277010_2_alg».proof.Proof.Gen.Kernel.Skeleton
import proofs.«148454_j55121610277010_2_alg».proof.Proof.Gen.Kernel.Launch
import proofs.«148454_j55121610277010_2_alg».proof.Proof.Gen.Kernel.Points
import proofs.«148454_j55121610277010_2_alg».proof.Proof.Gen.Kernel.Frame
import proofs.«148454_j55121610277010_2_alg».proof.Proof.Gen.KernelIdeal
import proofs.«148454_j55121610277010_2_alg».proof.Proof.Gen.KernelIdeal.Skeleton
import proofs.«148454_j55121610277010_2_alg».proof.Proof.Gen.KernelIdeal.Launch
import proofs.«148454_j55121610277010_2_alg».proof.Proof.Gen.KernelIdeal.Points
import proofs.«148454_j55121610277010_2_alg».proof.Proof.Gen.KernelIdeal.Frame
import proofs.«148454_j55121610277010_2_alg».proof.Proof.Gen.ReferenceIdeal
import proofs.«148454_j55121610277010_2_alg».proof.Proof.Gen.Pre_finite_inputs
import proofs.«148454_j55121610277010_2_alg».proof.Proof.KRun
import proofs.«148454_j55121610277010_2_alg».proof.Proof.KernelValue
import proofs.«148454_j55121610277010_2_alg».proof.Proof.RefRunPatched
import proofs.«148454_j55121610277010_2_alg».proof.Proof.RefTerm
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result array at the reference's logits formula of the arguments, which agree. -/
theorem algebraic : Cert.algebraic_KernelIdeal_ReferenceIdeal := by
  intro m ρ m' ρ' _ hagree
  refine ⟨fun c => Cert.KernelIdeal.Gen.W13 m ρ c (Proc.devRef .tc Cert.KernelIdeal.main_v76),
    Cert.KernelIdeal.RunValue.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefTerm.res_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.KernelIdeal.KernelValue.kernel_value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
